-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S256x8 .f32) (main_arg10 : FVec F S8 .f32) (main_v33 : IVec S_ 1) : IVec S_ 1 :=
  let main_v34 : FVec F S256x8 .f32 := Host.absf main_arg9
  let main_cst_12 : FVec F S_ .f32 := constant S_ .f32 0x7F800000#32
  let main_v35 : FVec F S256x8 .f32 := broadcastInDim S256x8 ![] bcast_S_S256x8 main_cst_12
  let main_v36 : IVec S256x8 1 := cmpf .olt main_v34 main_v35
  let main_c_13 : IVec S_ 1 := constantI S_ 1 1#1
  let main_v37 : IVec S_ 1 := (fun x v => Host.reduce IntOp.andi x v reducesTo_S256x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x8 .f32) (main_arg10 : FVec F S8 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x8 .f32) (main_arg10 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S50000x1 : Shape := ⟨2, ![50000, 1]⟩
abbrev S1x256 : Shape := ⟨2, ![1, 256]⟩
abbrev S64 : Shape := ⟨1, ![64]⟩
abbrev S64x256 : Shape := ⟨2, ![64, 256]⟩
abbrev S64x1 : Shape := ⟨2, ![64, 1]⟩
abbrev S64x8 : Shape := ⟨2, ![64, 8]⟩
abbrev S1x8 : Shape := ⟨2, ![1, 8]⟩

abbrev nBuf : Space → Nat
  | .hbm => 148
  | .vmem => 18
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x8, .f32⟩
  | 10 => ⟨S8, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S50000x256, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S800000x1, .f32⟩
  | 58 => ⟨S800000x256, .f32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S50000x1, .f32⟩
  | 65 => ⟨S50000x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S800000x1, .f32⟩
  | 85 => ⟨S800000x256, .f32⟩
  | 86 => ⟨S800000x256, .f32⟩
  | 87 => ⟨S_, .f32⟩
  | 88 => ⟨S50000x256, .f32⟩
  | 89 => ⟨S800000x1, .i32⟩
  | 90 => ⟨S50000x256, .f32⟩
  | 91 => ⟨S50000x1, .f32⟩
  | 92 => ⟨S50000x256, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000x256, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x256, .f32⟩
  | 111 => ⟨S800000x1, .f32⟩
  | 112 => ⟨S800000x256, .f32⟩
  | 113 => ⟨S800000x256, .f32⟩
  | 114 => ⟨S_, .f32⟩
  | 115 => ⟨S50000x256, .f32⟩
  | 116 => ⟨S800000x1, .i32⟩
  | 117 => ⟨S50000x256, .f32⟩
  | 118 => ⟨S50000x1, .f32⟩
  | 119 => ⟨S50000x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x128, .f32⟩

abbrev hbmTy0_1 (i : Nat) : BufTy := match i % 128 with
  | 0 => ⟨S_, .f32⟩
  | 1 => ⟨S50000, .f32⟩
  | 2 => ⟨S_, .f32⟩
  | 3 => ⟨S64, .f32⟩
  | 4 => ⟨S50000x1, .i32⟩
  | 5 => ⟨S64, .f32⟩
  | 6 => ⟨S_, .f32⟩
  | 7 => ⟨S64x256, .f32⟩
  | 8 => ⟨S50000x1, .i32⟩
  | 9 => ⟨S64x256, .f32⟩
  | 10 => ⟨S_, .f32⟩
  | 11 => ⟨S64, .f32⟩
  | 12 => ⟨S64, .f32⟩
  | 13 => ⟨S64x1, .f32⟩
  | 14 => ⟨S64x256, .f32⟩
  | 15 => ⟨S64x256, .f32⟩
  | 16 => ⟨S64x8, .f32⟩
  | 17 => ⟨S1x8, .f32⟩
  | 18 => ⟨S64x8, .f32⟩
  | 19 => ⟨S64x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S64x256, .f32⟩
  | .local _ .vmem, ⟨16, _⟩ => ⟨S256x8, .f32⟩
  | .local _ .vmem, ⟨17, _⟩ => ⟨S64x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_v71 : Ref sig .tc := ⟨.hbm, 100, rfl⟩
abbrev main_v72 : Ref sig .tc := ⟨.hbm, 101, rfl⟩
abbrev main_c_12 : Ref sig .tc := ⟨.hbm, 102, rfl⟩
abbrev main_v73 : Ref sig .tc := ⟨.hbm, 103, rfl⟩
abbrev main_v74 : Ref sig .tc := ⟨.hbm, 104, rfl⟩
abbrev main_c_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call2_cst : Ref sig .tc := ⟨.hbm, 125, rfl⟩
abbrev main_call2_v0 : Ref sig .tc := ⟨.hbm, 126, rfl⟩
abbrev main_v93 : Ref sig .tc := ⟨.hbm, 127, rfl⟩
abbrev main_cst_15 : Ref sig .tc := ⟨.hbm, 128, rfl⟩
abbrev main_v94 : Ref sig .tc := ⟨.hbm, 129, rfl⟩
abbrev main_cst_16 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_17 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_18 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S64x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x8_S256x8_0_0 : ∀ a, (![0, 0] : Fin 2 → Nat) a + S256x8.size a ≤ S256x8.size a
  h_S256x8 : 0 < S256x8.numel
  inb_S64x8_S64x8_0_0 : ∀ a, (![0, 0] : Fin 2 → Nat) a + S64x8.size a ≤ S64x8.size a
  h_S64x8 : 0 < S64x8.numel
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x256_S256x8_S64x8_1_0_0_1_n_n_wf : DotDims.WF S64x256 S256x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S64x256.size a ≤ S64x256.size a
  hwx3_0 : ∀ i : grid3.Coords, EltTy.bits .f32 = 32 ∨ (Rect.block (s := S64x256) S64x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x8.size a ≤ S256x8.size a
  hwx3_1 : ∀ i : grid3.Coords, EltTy.bits .f32 = 32 ∨ (Rect.block (s := S256x8) S256x8.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S64x8.size a ≤ S64x8.size a
  hwx3_2 : ∀ i : grid3.Coords, EltTy.bits .f32 = 32 ∨ (Rect.block (s := S64x8) S64x8.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x8_S64x8_1_0_0_1_n_n : DotDims S64x256 S256x8 S64x8 where
  lhsContracting := [1]
  rhsContracting := [0]
  lhsNonContracting := [0]
  rhsNonContracting := [1]
  lhsBatch := []
  rhsBatch := []
  wf := dot_S64x256_S256x8_S64x8_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v71) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v105) S64x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v106) S64x8.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S64 : Shape := ⟨1, ![64]⟩
abbrev S64x256 : Shape := ⟨2, ![64, 256]⟩
abbrev S64x1 : Shape := ⟨2, ![64, 1]⟩
abbrev S64x8 : Shape := ⟨2, ![64, 8]⟩
abbrev S1x8 : Shape := ⟨2, ![1, 8]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x8, .f32⟩
  | 10 => ⟨S8, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S50000x256, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S800000x1, .f32⟩
  | 58 => ⟨S800000x256, .f32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S50000x1, .f32⟩
  | 65 => ⟨S50000x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S800000x1, .f32⟩
  | 85 => ⟨S800000x256, .f32⟩
  | 86 => ⟨S800000x256, .f32⟩
  | 87 => ⟨S_, .f32⟩
  | 88 => ⟨S50000x256, .f32⟩
  | 89 => ⟨S800000x1, .i32⟩
  | 90 => ⟨S50000x256, .f32⟩
  | 91 => ⟨S50000x1, .f32⟩
  | 92 => ⟨S50000x256, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000x256, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x256, .f32⟩
  | 111 => ⟨S800000x1, .f32⟩
  | 112 => ⟨S800000x256, .f32⟩
  | 113 => ⟨S800000x256, .f32⟩
  | 114 => ⟨S_, .f32⟩
  | 115 => ⟨S50000x256, .f32⟩
  | 116 => ⟨S800000x1, .i32⟩
  | 117 => ⟨S50000x256, .f32⟩
  | 118 => ⟨S50000x1, .f32⟩
  | 119 => ⟨S50000x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x128, .f32⟩

abbrev hbmTy0_1 (i : Nat) : BufTy := match i % 128 with
  | 0 => ⟨S_, .f32⟩
  | 1 => ⟨S50000, .f32⟩
  | 2 => ⟨S_, .f32⟩
  | 3 => ⟨S64, .f32⟩
  | 4 => ⟨S50000x1, .i32⟩
  | 5 => ⟨S64, .f32⟩
  | 6 => ⟨S_, .f32⟩
  | 7 => ⟨S64x256, .f32⟩
  | 8 => ⟨S50000x1, .i32⟩
  | 9 => ⟨S64x256, .f32⟩
  | 10 => ⟨S_, .f32⟩
  | 11 => ⟨S64, .f32⟩
  | 12 => ⟨S64, .f32⟩
  | 13 => ⟨S64x1, .f32⟩
  | 14 => ⟨S64x256, .f32⟩
  | 15 => ⟨S64x256, .f32⟩
  | 16 => ⟨S64x8, .f32⟩
  | 17 => ⟨S1x8, .f32⟩
  | 18 => ⟨S64x8, .f32⟩
  | 19 => ⟨S64x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_v71 : Ref sig .tc := ⟨.hbm, 100, rfl⟩
abbrev main_v72 : Ref sig .tc := ⟨.hbm, 101, rfl⟩
abbrev main_c_12 : Ref sig .tc := ⟨.hbm, 102, rfl⟩
abbrev main_v73 : Ref sig .tc := ⟨.hbm, 103, rfl⟩
abbrev main_v74 : Ref sig .tc := ⟨.hbm, 104, rfl⟩
abbrev main_c_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call2_cst : Ref sig .tc := ⟨.hbm, 125, rfl⟩
abbrev main_call2_v0 : Ref sig .tc := ⟨.hbm, 126, rfl⟩
abbrev main_v93 : Ref sig .tc := ⟨.hbm, 127, rfl⟩
abbrev main_cst_15 : Ref sig .tc := ⟨.hbm, 128, rfl⟩
abbrev main_v94 : Ref sig .tc := ⟨.hbm, 129, rfl⟩
abbrev main_cst_16 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_17 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_18 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x256_S256x8_S64x8_1_0_0_1_n_n_wf : DotDims.WF S64x256 S256x8 S64x8 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x8_S64x8_1_0_0_1_n_n : DotDims S64x256 S256x8 S64x8 where
  lhsContracting := [1]
  rhsContracting := [0]
  lhsNonContracting := [0]
  rhsNonContracting := [1]
  lhsBatch := []
  rhsBatch := []
  wf := dot_S64x256_S256x8_S64x8_1_0_0_1_n_n_wf

class Facts : Prop extends Facts₀ where

variable [Facts]
-- ==== Proof.KernelRun.lean ====
/-
  The idealized kernel's run, with its result named.

  The program is four launches of the row-tiled matrix product among stretches of host operations.
  Its execution is followed segment by segment: every buffer of the TensorCore that is not a staging
  buffer holds, at each boundary between segments, the contents obtained by folding the host
  operations and the launches' write-backs through the program from the launch memory. At the return
  this fold is the valuation `W13`; so every weakly fair execution terminates, without a fault, with
  the result buffer at `W13` read at the result's reference, and with the eleven argument arrays as
  launched (no host operation and no launch writes an argument).
-/
import proofs.«121509_j40750649704920_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at
    the last boundary's contents and the argument arrays end as launched. -/
theorem run : θ_run defs (onTc (τ := τ) (main (F := F))) ⟨m, fun _ => 0, ρ⟩ (fun r => ∀ c : Dev nD,
      r.2.mem ((c.tc : Thread nD τ).loc main_v109) = W13 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v109 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.KernelRun

end
-- ==== Proof.MatmulAtIndex.lean ====
/-
  A matrix product read at an index, on the extended reals.

  The kernel multiplies a block of rows by the whole weight matrix with the matrix unit, from a zero
  accumulator, after narrowing both operands to bf16; the reference multiplies the whole matrices with
  `dot_general`. On the extended reals a change of float format is the identity and both products are
  the textbook sum: entry (r, q) is the sum over k of left(r, k) * right(k, q). This module states that
  reading for each of the three pairs of shapes the network uses (128 -> 256 features on 50000 nodes,
  256 -> 256 on 50000 nodes, 256 -> 8 on 64 graphs), once for the kernel's row block and once for the
  reference's whole product.
-/
import proofs.«121509_j40750649704920_1_alg».proof.KernelIdeal
import proofs.«121509_j40750649704920_1_alg».proof.ReferenceIdeal
import proofs.«121509_j40750649704920_1_alg».proof.Proof.Gen.KernelIdeal
import proofs.«121509_j40750649704920_1_alg».proof.Proof.Gen.KernelIdeal.Skeleton
import proofs.«121509_j40750649704920_1_alg».proof.Proof.Gen.ReferenceIdeal
import Idealize.ShloMosaic.Lib.ValueIdx
import Idealize.ShloMosaic.Lib.Pipeline.Value
import Idealize.ShloMosaic.PureOps.Ideal.Laws

noncomputable section

namespace Cert.MatmulAtIndex

open Idealize.ShloMosaic Idealize.ShloMosaic.ValueIdx

/-! ## 128 input features, 256 output features, 50000 nodes -/

theorem b1_l0 (i : Cert.KernelIdeal.S2000x256.Idx) (c : Cert.KernelIdeal.dot_S2000x128_S128x256_S2000x256_1_0_0_1_n_n.contr.Idx) : (Cert.KernelIdeal.dot_S2000x128_S128x256_S2000x256_1_0_0_1_n_n.lhsIdx i c 0).val = (i 0).val := by
  unfold DotDims.lhsIdx
  rw [dif_neg (show ¬(0 : Fin Cert.KernelIdeal.S2000x128.rank) ∈ Cert.KernelIdeal.dot_S2000x128_S128x256_S2000x256_1_0_0_1_n_n.lhsBatch by decide), dif_pos (show (0 : Fin Cert.KernelIdeal.S2000x128.rank) ∈ Cert.KernelIdeal.dot_S2000x128_S128x256_S2000x256_1_0_0_1_n_n.lhsNonContracting by decide)]
  rfl
theorem b1_l1 (i : Cert.KernelIdeal.S2000x256.Idx) (c : Cert.KernelIdeal.dot_S2000x128_S128x256_S2000x256_1_0_0_1_n_n.contr.Idx) : (Cert.KernelIdeal.dot_S2000x128_S128x256_S2000x256_1_0_0_1_n_n.lhsIdx i c 1).val = (c ⟨0, by decide⟩).val :=
  Cert.KernelIdeal.dot_S2000x128_S128x256_S2000x256_1_0_0_1_n_n.lhsIdx_val_of_single rfl i c
theorem b1_r0 (i : Cert.KernelIdeal.S2000x256.Idx) (c : Cert.KernelIdeal.dot_S2000x128_S128x256_S2000x256_1_0_0_1_n_n.contr.Idx) : (Cert.KernelIdeal.dot_S2000x128_S128x256_S2000x256_1_0_0_1_n_n.rhsIdx i c 0).val = (c ⟨0, by decide⟩).val :=
  Cert.KernelIdeal.dot_S2000x128_S128x256_S2000x256_1_0_0_1_n_n.rhsIdx_val_of_single rfl i c
theorem b1_r1 (i : Cert.KernelIdeal.S2000x256.Idx) (c : Cert.KernelIdeal.dot_S2000x128_S128x256_S2000x256_1_0_0_1_n_n.contr.Idx) : (Cert.KernelIdeal.dot_S2000x128_S128x256_S2000x256_1_0_0_1_n_n.rhsIdx i c 1).val = (i 1).val := by
  unfold DotDims.rhsIdx
  rw [dif_neg (show ¬(1 : Fin Cert.KernelIdeal.S128x256.rank) ∈ Cert.KernelIdeal.dot_S2000x128_S128x256_S2000x256_1_0_0_1_n_n.rhsBatch by decide), dif_pos (show (1 : Fin Cert.KernelIdeal.S128x256.rank) ∈ Cert.KernelIdeal.dot_S2000x128_S128x256_S2000x256_1_0_0_1_n_n.rhsNonContracting by decide)]
  rfl
/-- The operands' indices of the product's sum: at output (r, q) and inner position k they are (r, k) and (k, q). -/
theorem b1_idx (r : Fin 2000) (q : Fin 256) (k : Fin 128) :
    Cert.KernelIdeal.dot_S2000x128_S128x256_S2000x256_1_0_0_1_n_n.lhsIdx (ix2 r q) ((contrEquiv1 Cert.KernelIdeal.dot_S2000x128_S128x256_S2000x256_1_0_0_1_n_n 128 rfl rfl).symm k) = ix2 r k
    ∧ Cert.KernelIdeal.dot_S2000x128_S128x256_S2000x256_1_0_0_1_n_n.rhsIdx (ix2 r q) ((contrEquiv1 Cert.KernelIdeal.dot_S2000x128_S128x256_S2000x256_1_0_0_1_n_n 128 rfl rfl).symm k) = ix2 k q := by
  have hk := contrEquiv1_symm_val Cert.KernelIdeal.dot_S2000x128_S128x256_S2000x256_1_0_0_1_n_n 128 rfl rfl k
  refine ⟨funext fun a => Fin.ext ?_, funext fun a => Fin.ext ?_⟩
  · match a with
    | ⟨0, _⟩ => exact b1_l0 _ _
    | ⟨1, _⟩ => exact (b1_l1 _ _).trans hk
  · match a with
    | ⟨0, _⟩ => exact (b1_r0 _ _).trans hk
    | ⟨1, _⟩ => exact b1_r1 _ _

/-- A block of 2000 rows times the 128 x 256 weights, as the kernel's matrix unit computes it from a zero accumulator on the extended reals (narrowing to bf16 is the identity there): entry (p, q) is the sum over k of block(p, k) * weights(k, q). -/
theorem block_128_256 (x : Vec Ideal Cert.KernelIdeal.S2000x128 .f32) (w : Vec Ideal Cert.KernelIdeal.S128x256 .f32) (p : Fin 2000) (q : Fin 256) :
    Cert.KernelIdeal.Gen.k0_pay1 (F := Ideal) x w (ix2 p q) = ∑ k : Fin 128, x (ix2 p k) * w (ix2 k q) := by
  unfold Cert.KernelIdeal.Gen.k0_pay1
  refine (Ideal.matmul_constant_zero_apply Cert.KernelIdeal.dot_S2000x128_S128x256_S2000x256_1_0_0_1_n_n none _ _ (ix2 p q)).trans ?_
  rw [← Equiv.sum_comp (contrEquiv1 Cert.KernelIdeal.dot_S2000x128_S128x256_S2000x256_1_0_0_1_n_n 128 rfl rfl).symm]
  refine Finset.sum_congr rfl fun k _ => ?_
  rw [(b1_idx p q k).1, (b1_idx p q k).2]
  rfl

theorem w1_l0 (i : Cert.ReferenceIdeal.S50000x256.Idx) (c : Cert.ReferenceIdeal.dot_S50000x128_S128x256_S50000x256_1_0_0_1_n_n.contr.Idx) : (Cert.ReferenceIdeal.dot_S50000x128_S128x256_S50000x256_1_0_0_1_n_n.lhsIdx i c 0).val = (i 0).val := by
  unfold DotDims.lhsIdx
  rw [dif_neg (show ¬(0 : Fin Cert.ReferenceIdeal.S50000x128.rank) ∈ Cert.ReferenceIdeal.dot_S50000x128_S128x256_S50000x256_1_0_0_1_n_n.lhsBatch by decide), dif_pos (show (0 : Fin Cert.ReferenceIdeal.S50000x128.rank) ∈ Cert.ReferenceIdeal.dot_S50000x128_S128x256_S50000x256_1_0_0_1_n_n.lhsNonContracting by decide)]
  rfl
theorem w1_l1 (i : Cert.ReferenceIdeal.S50000x256.Idx) (c : Cert.ReferenceIdeal.dot_S50000x128_S128x256_S50000x256_1_0_0_1_n_n.contr.Idx) : (Cert.ReferenceIdeal.dot_S50000x128_S128x256_S50000x256_1_0_0_1_n_n.lhsIdx i c 1).val = (c ⟨0, by decide⟩).val :=
  Cert.ReferenceIdeal.dot_S50000x128_S128x256_S50000x256_1_0_0_1_n_n.lhsIdx_val_of_single rfl i c
theorem w1_r0 (i : Cert.ReferenceIdeal.S50000x256.Idx) (c : Cert.ReferenceIdeal.dot_S50000x128_S128x256_S50000x256_1_0_0_1_n_n.contr.Idx) : (Cert.ReferenceIdeal.dot_S50000x128_S128x256_S50000x256_1_0_0_1_n_n.rhsIdx i c 0).val = (c ⟨0, by decide⟩).val :=
  Cert.ReferenceIdeal.dot_S50000x128_S128x256_S50000x256_1_0_0_1_n_n.rhsIdx_val_of_single rfl i c
theorem w1_r1 (i : Cert.ReferenceIdeal.S50000x256.Idx) (c : Cert.ReferenceIdeal.dot_S50000x128_S128x256_S50000x256_1_0_0_1_n_n.contr.Idx) : (Cert.ReferenceIdeal.dot_S50000x128_S128x256_S50000x256_1_0_0_1_n_n.rhsIdx i c 1).val = (i 1).val := by
  unfold DotDims.rhsIdx
  rw [dif_neg (show ¬(1 : Fin Cert.ReferenceIdeal.S128x256.rank) ∈ Cert.ReferenceIdeal.dot_S50000x128_S128x256_S50000x256_1_0_0_1_n_n.rhsBatch by decide), dif_pos (show (1 : Fin Cert.ReferenceIdeal.S128x256.rank) ∈ Cert.ReferenceIdeal.dot_S50000x128_S128x256_S50000x256_1_0_0_1_n_n.rhsNonContracting by decide)]
  rfl
/-- The operands' indices of the product's sum: at output (r, q) and inner position k they are (r, k) and (k, q). -/
theorem w1_idx (r : Fin 50000) (q : Fin 256) (k : Fin 128) :
    Cert.ReferenceIdeal.dot_S50000x128_S128x256_S50000x256_1_0_0_1_n_n.lhsIdx (ix2 r q) ((contrEquiv1 Cert.ReferenceIdeal.dot_S50000x128_S128x256_S50000x256_1_0_0_1_n_n 128 rfl rfl).symm k) = ix2 r k
    ∧ Cert.ReferenceIdeal.dot_S50000x128_S128x256_S50000x256_1_0_0_1_n_n.rhsIdx (ix2 r q) ((contrEquiv1 Cert.ReferenceIdeal.dot_S50000x128_S128x256_S50000x256_1_0_0_1_n_n 128 rfl rfl).symm k) = ix2 k q := by
  have hk := contrEquiv1_symm_val Cert.ReferenceIdeal.dot_S50000x128_S128x256_S50000x256_1_0_0_1_n_n 128 rfl rfl k
  refine ⟨funext fun a => Fin.ext ?_, funext fun a => Fin.ext ?_⟩
  · match a with
    | ⟨0, _⟩ => exact w1_l0 _ _
    | ⟨1, _⟩ => exact (w1_l1 _ _).trans hk
  · match a with
    | ⟨0, _⟩ => exact (w1_r0 _ _).trans hk
    | ⟨1, _⟩ => exact w1_r1 _ _

/-- The reference's product of the whole 50000 x 128 matrix with the 128 x 256 weights: entry (r, q) is the sum over k of left(r, k) * weights(k, q). -/
theorem whole_128_256 (x : FVec Ideal Cert.ReferenceIdeal.S50000x128 .f32) (w : FVec Ideal Cert.ReferenceIdeal.S128x256 .f32) (r : Fin 50000) (q : Fin 256) :
    Host.dotGeneral Cert.ReferenceIdeal.dot_S50000x128_S128x256_S50000x256_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  rw [(w1_idx r q k).1, (w1_idx r q k).2]

/-! ## 256 input features, 256 output features, 50000 nodes (layers 2 and 3) -/

theorem b2_l0 (i : Cert.KernelIdeal.S2000x256.Idx) (c : Cert.KernelIdeal.dot_S2000x256_S256x256_S2000x256_1_0_0_1_n_n.contr.Idx) : (Cert.KernelIdeal.dot_S2000x256_S256x256_S2000x256_1_0_0_1_n_n.lhsIdx i c 0).val = (i 0).val := by
  unfold DotDims.lhsIdx
  rw [dif_neg (show ¬(0 : Fin Cert.KernelIdeal.S2000x256.rank) ∈ Cert.KernelIdeal.dot_S2000x256_S256x256_S2000x256_1_0_0_1_n_n.lhsBatch by decide), dif_pos (show (0 : Fin Cert.KernelIdeal.S2000x256.rank) ∈ Cert.KernelIdeal.dot_S2000x256_S256x256_S2000x256_1_0_0_1_n_n.lhsNonContracting by decide)]
  rfl
theorem b2_l1 (i : Cert.KernelIdeal.S2000x256.Idx) (c : Cert.KernelIdeal.dot_S2000x256_S256x256_S2000x256_1_0_0_1_n_n.contr.Idx) : (Cert.KernelIdeal.dot_S2000x256_S256x256_S2000x256_1_0_0_1_n_n.lhsIdx i c 1).val = (c ⟨0, by decide⟩).val :=
  Cert.KernelIdeal.dot_S2000x256_S256x256_S2000x256_1_0_0_1_n_n.lhsIdx_val_of_single rfl i c
theorem b2_r0 (i : Cert.KernelIdeal.S2000x256.Idx) (c : Cert.KernelIdeal.dot_S2000x256_S256x256_S2000x256_1_0_0_1_n_n.contr.Idx) : (Cert.KernelIdeal.dot_S2000x256_S256x256_S2000x256_1_0_0_1_n_n.rhsIdx i c 0).val = (c ⟨0, by decide⟩).val :=
  Cert.KernelIdeal.dot_S2000x256_S256x256_S2000x256_1_0_0_1_n_n.rhsIdx_val_of_single rfl i c
theorem b2_r1 (i : Cert.KernelIdeal.S2000x256.Idx) (c : Cert.KernelIdeal.dot_S2000x256_S256x256_S2000x256_1_0_0_1_n_n.contr.Idx) : (Cert.KernelIdeal.dot_S2000x256_S256x256_S2000x256_1_0_0_1_n_n.rhsIdx i c 1).val = (i 1).val := by
  unfold DotDims.rhsIdx
  rw [dif_neg (show ¬(1 : Fin Cert.KernelIdeal.S256x256.rank) ∈ Cert.KernelIdeal.dot_S2000x256_S256x256_S2000x256_1_0_0_1_n_n.rhsBatch by decide), dif_pos (show (1 : Fin Cert.KernelIdeal.S256x256.rank) ∈ Cert.KernelIdeal.dot_S2000x256_S256x256_S2000x256_1_0_0_1_n_n.rhsNonContracting by decide)]
  rfl
/-- The operands' indices of the product's sum: at output (r, q) and inner position k they are (r, k) and (k, q). -/
theorem b2_idx (r : Fin 2000) (q : Fin 256) (k : Fin 256) :
    Cert.KernelIdeal.dot_S2000x256_S256x256_S2000x256_1_0_0_1_n_n.lhsIdx (ix2 r q) ((contrEquiv1 Cert.KernelIdeal.dot_S2000x256_S256x256_S2000x256_1_0_0_1_n_n 256 rfl rfl).symm k) = ix2 r k
    ∧ Cert.KernelIdeal.dot_S2000x256_S256x256_S2000x256_1_0_0_1_n_n.rhsIdx (ix2 r q) ((contrEquiv1 Cert.KernelIdeal.dot_S2000x256_S256x256_S2000x256_1_0_0_1_n_n 256 rfl rfl).symm k) = ix2 k q := by
  have hk := contrEquiv1_symm_val Cert.KernelIdeal.dot_S2000x256_S256x256_S2000x256_1_0_0_1_n_n 256 rfl rfl k
  refine ⟨funext fun a => Fin.ext ?_, funext fun a => Fin.ext ?_⟩
  · match a with
    | ⟨0, _⟩ => exact b2_l0 _ _
    | ⟨1, _⟩ => exact (b2_l1 _ _).trans hk
  · match a with
    | ⟨0, _⟩ => exact (b2_r0 _ _).trans hk
    | ⟨1, _⟩ => exact b2_r1 _ _

/-- A block of 2000 rows times the 256 x 256 weights, as the kernel's matrix unit computes it from a zero accumulator on the extended reals (a reshape to the same shape and narrowing to bf16 are the identity there): entry (p, q) is the sum over k of block(p, k) * weights(k, q). -/
theorem block_256_256_layer2 (x : Vec Ideal Cert.KernelIdeal.S2000x256 .f32) (w : Vec Ideal Cert.KernelIdeal.S256x256 .f32) (p : Fin 2000) (q : Fin 256) :
    Cert.KernelIdeal.Gen.k1_pay1 (F := Ideal) x w (ix2 p q) = ∑ k : Fin 256, x (ix2 p k) * w (ix2 k q) := by
  unfold Cert.KernelIdeal.Gen.k1_pay1
  rw [shapeCast_self]
  refine (Ideal.matmul_constant_zero_apply Cert.KernelIdeal.dot_S2000x256_S256x256_S2000x256_1_0_0_1_n_n none _ _ (ix2 p q)).trans ?_
  rw [← Equiv.sum_comp (contrEquiv1 Cert.KernelIdeal.dot_S2000x256_S256x256_S2000x256_1_0_0_1_n_n 256 rfl rfl).symm]
  refine Finset.sum_congr rfl fun k _ => ?_
  rw [(b2_idx p q k).1, (b2_idx p q k).2]
  rfl

/-- A block of 2000 rows times the 256 x 256 weights, as the kernel's matrix unit computes it from a zero accumulator on the extended reals (a reshape to the same shape and narrowing to bf16 are the identity there): entry (p, q) is the sum over k of block(p, k) * weights(k, q). -/
theorem block_256_256_layer3 (x : Vec Ideal Cert.KernelIdeal.S2000x256 .f32) (w : Vec Ideal Cert.KernelIdeal.S256x256 .f32) (p : Fin 2000) (q : Fin 256) :
    Cert.KernelIdeal.Gen.k2_pay1 (F := Ideal) x w (ix2 p q) = ∑ k : Fin 256, x (ix2 p k) * w (ix2 k q) := by
  unfold Cert.KernelIdeal.Gen.k2_pay1
  rw [shapeCast_self]
  refine (Ideal.matmul_constant_zero_apply Cert.KernelIdeal.dot_S2000x256_S256x256_S2000x256_1_0_0_1_n_n none _ _ (ix2 p q)).trans ?_
  rw [← Equiv.sum_comp (contrEquiv1 Cert.KernelIdeal.dot_S2000x256_S256x256_S2000x256_1_0_0_1_n_n 256 rfl rfl).symm]
  refine Finset.sum_congr rfl fun k _ => ?_
  rw [(b2_idx p q k).1, (b2_idx p q k).2]
  rfl

theorem w2_l0 (i : Cert.ReferenceIdeal.S50000x256.Idx) (c : Cert.ReferenceIdeal.dot_S50000x256_S256x256_S50000x256_1_0_0_1_n_n.contr.Idx) : (Cert.ReferenceIdeal.dot_S50000x256_S256x256_S50000x256_1_0_0_1_n_n.lhsIdx i c 0).val = (i 0).val := by
  unfold DotDims.lhsIdx
  rw [dif_neg (show ¬(0 : Fin Cert.ReferenceIdeal.S50000x256.rank) ∈ Cert.ReferenceIdeal.dot_S50000x256_S256x256_S50000x256_1_0_0_1_n_n.lhsBatch by decide), dif_pos (show (0 : Fin Cert.ReferenceIdeal.S50000x256.rank) ∈ Cert.ReferenceIdeal.dot_S50000x256_S256x256_S50000x256_1_0_0_1_n_n.lhsNonContracting by decide)]
  rfl
theorem w2_l1 (i : Cert.ReferenceIdeal.S50000x256.Idx) (c : Cert.ReferenceIdeal.dot_S50000x256_S256x256_S50000x256_1_0_0_1_n_n.contr.Idx) : (Cert.ReferenceIdeal.dot_S50000x256_S256x256_S50000x256_1_0_0_1_n_n.lhsIdx i c 1).val = (c ⟨0, by decide⟩).val :=
  Cert.ReferenceIdeal.dot_S50000x256_S256x256_S50000x256_1_0_0_1_n_n.lhsIdx_val_of_single rfl i c
theorem w2_r0 (i : Cert.ReferenceIdeal.S50000x256.Idx) (c : Cert.ReferenceIdeal.dot_S50000x256_S256x256_S50000x256_1_0_0_1_n_n.contr.Idx) : (Cert.ReferenceIdeal.dot_S50000x256_S256x256_S50000x256_1_0_0_1_n_n.rhsIdx i c 0).val = (c ⟨0, by decide⟩).val :=
  Cert.ReferenceIdeal.dot_S50000x256_S256x256_S50000x256_1_0_0_1_n_n.rhsIdx_val_of_single rfl i c
theorem w2_r1 (i : Cert.ReferenceIdeal.S50000x256.Idx) (c : Cert.ReferenceIdeal.dot_S50000x256_S256x256_S50000x256_1_0_0_1_n_n.contr.Idx) : (Cert.ReferenceIdeal.dot_S50000x256_S256x256_S50000x256_1_0_0_1_n_n.rhsIdx i c 1).val = (i 1).val := by
  unfold DotDims.rhsIdx
  rw [dif_neg (show ¬(1 : Fin Cert.ReferenceIdeal.S256x256.rank) ∈ Cert.ReferenceIdeal.dot_S50000x256_S256x256_S50000x256_1_0_0_1_n_n.rhsBatch by decide), dif_pos (show (1 : Fin Cert.ReferenceIdeal.S256x256.rank) ∈ Cert.ReferenceIdeal.dot_S50000x256_S256x256_S50000x256_1_0_0_1_n_n.rhsNonContracting by decide)]
  rfl
/-- The operands' indices of the product's sum: at output (r, q) and inner position k they are (r, k) and (k, q). -/
theorem w2_idx (r : Fin 50000) (q : Fin 256) (k : Fin 256) :
    Cert.ReferenceIdeal.dot_S50000x256_S256x256_S50000x256_1_0_0_1_n_n.lhsIdx (ix2 r q) ((contrEquiv1 Cert.ReferenceIdeal.dot_S50000x256_S256x256_S50000x256_1_0_0_1_n_n 256 rfl rfl).symm k) = ix2 r k
    ∧ Cert.ReferenceIdeal.dot_S50000x256_S256x256_S50000x256_1_0_0_1_n_n.rhsIdx (ix2 r q) ((contrEquiv1 Cert.ReferenceIdeal.dot_S50000x256_S256x256_S50000x256_1_0_0_1_n_n 256 rfl rfl).symm k) = ix2 k q := by
  have hk := contrEquiv1_symm_val Cert.ReferenceIdeal.dot_S50000x256_S256x256_S50000x256_1_0_0_1_n_n 256 rfl rfl k
  refine ⟨funext fun a => Fin.ext ?_, funext fun a => Fin.ext ?_⟩
  · match a with
    | ⟨0, _⟩ => exact w2_l0 _ _
    | ⟨1, _⟩ => exact (w2_l1 _ _).trans hk
  · match a with
    | ⟨0, _⟩ => exact (w2_r0 _ _).trans hk
    | ⟨1, _⟩ => exact w2_r1 _ _

/-- The reference's product of the whole 50000 x 256 matrix with the 256 x 256 weights: entry (r, q) is the sum over k of left(r, k) * weights(k, q). -/
theorem whole_256_256 (x : FVec Ideal Cert.ReferenceIdeal.S50000x256 .f32) (w : FVec Ideal Cert.ReferenceIdeal.S256x256 .f32) (r : Fin 50000) (q : Fin 256) :
    Host.dotGeneral Cert.ReferenceIdeal.dot_S50000x256_S256x256_S50000x256_1_0_0_1_n_n none x w (ix2 r q) = ∑ k : Fin 256, x (ix2 r k) * w (ix2 k q) := by
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  rw [(w2_idx r q k).1, (w2_idx r q k).2]

/-! ## 256 pooled features, 8 classes, 64 graphs (the classifier) -/

theorem b3_l0 (i : Cert.KernelIdeal.S64x8.Idx) (c : Cert.KernelIdeal.dot_S64x256_S256x8_S64x8_1_0_0_1_n_n.contr.Idx) : (Cert.KernelIdeal.dot_S64x256_S256x8_S64x8_1_0_0_1_n_n.lhsIdx i c 0).val = (i 0).val := by
  unfold DotDims.lhsIdx
  rw [dif_neg (show ¬(0 : Fin Cert.KernelIdeal.S64x256.rank) ∈ Cert.KernelIdeal.dot_S64x256_S256x8_S64x8_1_0_0_1_n_n.lhsBatch by decide), dif_pos (show (0 : Fin Cert.KernelIdeal.S64x256.rank) ∈ Cert.KernelIdeal.dot_S64x256_S256x8_S64x8_1_0_0_1_n_n.lhsNonContracting by decide)]
  rfl
theorem b3_l1 (i : Cert.KernelIdeal.S64x8.Idx) (c : Cert.KernelIdeal.dot_S64x256_S256x8_S64x8_1_0_0_1_n_n.contr.Idx) : (Cert.KernelIdeal.dot_S64x256_S256x8_S64x8_1_0_0_1_n_n.lhsIdx i c 1).val = (c ⟨0, by decide⟩).val :=
  Cert.KernelIdeal.dot_S64x256_S256x8_S64x8_1_0_0_1_n_n.lhsIdx_val_of_single rfl i c
theorem b3_r0 (i : Cert.KernelIdeal.S64x8.Idx) (c : Cert.KernelIdeal.dot_S64x256_S256x8_S64x8_1_0_0_1_n_n.contr.Idx) : (Cert.KernelIdeal.dot_S64x256_S256x8_S64x8_1_0_0_1_n_n.rhsIdx i c 0).val = (c ⟨0, by decide⟩).val :=
  Cert.KernelIdeal.dot_S64x256_S256x8_S64x8_1_0_0_1_n_n.rhsIdx_val_of_single rfl i c
theorem b3_r1 (i : Cert.KernelIdeal.S64x8.Idx) (c : Cert.KernelIdeal.dot_S64x256_S256x8_S64x8_1_0_0_1_n_n.contr.Idx) : (Cert.KernelIdeal.dot_S64x256_S256x8_S64x8_1_0_0_1_n_n.rhsIdx i c 1).val = (i 1).val := by
  unfold DotDims.rhsIdx
  rw [dif_neg (show ¬(1 : Fin Cert.KernelIdeal.S256x8.rank) ∈ Cert.KernelIdeal.dot_S64x256_S256x8_S64x8_1_0_0_1_n_n.rhsBatch by decide), dif_pos (show (1 : Fin Cert.KernelIdeal.S256x8.rank) ∈ Cert.KernelIdeal.dot_S64x256_S256x8_S64x8_1_0_0_1_n_n.rhsNonContracting by decide)]
  rfl
/-- The operands' indices of the product's sum: at output (r, q) and inner position k they are (r, k) and (k, q). -/
theorem b3_idx (r : Fin 64) (q : Fin 8) (k : Fin 256) :
    Cert.KernelIdeal.dot_S64x256_S256x8_S64x8_1_0_0_1_n_n.lhsIdx (ix2 r q) ((contrEquiv1 Cert.KernelIdeal.dot_S64x256_S256x8_S64x8_1_0_0_1_n_n 256 rfl rfl).symm k) = ix2 r k
    ∧ Cert.KernelIdeal.dot_S64x256_S256x8_S64x8_1_0_0_1_n_n.rhsIdx (ix2 r q) ((contrEquiv1 Cert.KernelIdeal.dot_S64x256_S256x8_S64x8_1_0_0_1_n_n 256 rfl rfl).symm k) = ix2 k q := by
  have hk := contrEquiv1_symm_val Cert.KernelIdeal.dot_S64x256_S256x8_S64x8_1_0_0_1_n_n 256 rfl rfl k
  refine ⟨funext fun a => Fin.ext ?_, funext fun a => Fin.ext ?_⟩
  · match a with
    | ⟨0, _⟩ => exact b3_l0 _ _
    | ⟨1, _⟩ => exact (b3_l1 _ _).trans hk
  · match a with
    | ⟨0, _⟩ => exact (b3_r0 _ _).trans hk
    | ⟨1, _⟩ => exact b3_r1 _ _

/-- A block of 64 rows times the 256 x 8 weights, as the kernel's matrix unit computes it from a zero accumulator on the extended reals (a reshape to the same shape and narrowing to bf16 are the identity there): entry (p, q) is the sum over k of block(p, k) * weights(k, q). -/
theorem block_256_8 (x : Vec Ideal Cert.KernelIdeal.S64x256 .f32) (w : Vec Ideal Cert.KernelIdeal.S256x8 .f32) (p : Fin 64) (q : Fin 8) :
    Cert.KernelIdeal.Gen.k3_pay1 (F := Ideal) x w (ix2 p q) = ∑ k : Fin 256, x (ix2 p k) * w (ix2 k q) := by
  unfold Cert.KernelIdeal.Gen.k3_pay1
  rw [shapeCast_self]
  refine (Ideal.matmul_constant_zero_apply Cert.KernelIdeal.dot_S64x256_S256x8_S64x8_1_0_0_1_n_n none _ _ (ix2 p q)).trans ?_
  rw [← Equiv.sum_comp (contrEquiv1 Cert.KernelIdeal.dot_S64x256_S256x8_S64x8_1_0_0_1_n_n 256 rfl rfl).symm]
  refine Finset.sum_congr rfl fun k _ => ?_
  rw [(b3_idx p q k).1, (b3_idx p q k).2]
  rfl

theorem w3_l0 (i : Cert.ReferenceIdeal.S64x8.Idx) (c : Cert.ReferenceIdeal.dot_S64x256_S256x8_S64x8_1_0_0_1_n_n.contr.Idx) : (Cert.ReferenceIdeal.dot_S64x256_S256x8_S64x8_1_0_0_1_n_n.lhsIdx i c 0).val = (i 0).val := by
  unfold DotDims.lhsIdx
  rw [dif_neg (show ¬(0 : Fin Cert.ReferenceIdeal.S64x256.rank) ∈ Cert.ReferenceIdeal.dot_S64x256_S256x8_S64x8_1_0_0_1_n_n.lhsBatch by decide), dif_pos (show (0 : Fin Cert.ReferenceIdeal.S64x256.rank) ∈ Cert.ReferenceIdeal.dot_S64x256_S256x8_S64x8_1_0_0_1_n_n.lhsNonContracting by decide)]
  rfl
theorem w3_l1 (i : Cert.ReferenceIdeal.S64x8.Idx) (c : Cert.ReferenceIdeal.dot_S64x256_S256x8_S64x8_1_0_0_1_n_n.contr.Idx) : (Cert.ReferenceIdeal.dot_S64x256_S256x8_S64x8_1_0_0_1_n_n.lhsIdx i c 1).val = (c ⟨0, by decide⟩).val :=
  Cert.ReferenceIdeal.dot_S64x256_S256x8_S64x8_1_0_0_1_n_n.lhsIdx_val_of_single rfl i c
theorem w3_r0 (i : Cert.ReferenceIdeal.S64x8.Idx) (c : Cert.ReferenceIdeal.dot_S64x256_S256x8_S64x8_1_0_0_1_n_n.contr.Idx) : (Cert.ReferenceIdeal.dot_S64x256_S256x8_S64x8_1_0_0_1_n_n.rhsIdx i c 0).val = (c ⟨0, by decide⟩).val :=
  Cert.ReferenceIdeal.dot_S64x256_S256x8_S64x8_1_0_0_1_n_n.rhsIdx_val_of_single rfl i c
theorem w3_r1 (i : Cert.ReferenceIdeal.S64x8.Idx) (c : Cert.ReferenceIdeal.dot_S64x256_S256x8_S64x8_1_0_0_1_n_n.contr.Idx) : (Cert.ReferenceIdeal.dot_S64x256_S256x8_S64x8_1_0_0_1_n_n.rhsIdx i c 1).val = (i 1).val := by
  unfold DotDims.rhsIdx
  rw [dif_neg (show ¬(1 : Fin Cert.ReferenceIdeal.S256x8.rank) ∈ Cert.ReferenceIdeal.dot_S64x256_S256x8_S64x8_1_0_0_1_n_n.rhsBatch by decide), dif_pos (show (1 : Fin Cert.ReferenceIdeal.S256x8.rank) ∈ Cert.ReferenceIdeal.dot_S64x256_S256x8_S64x8_1_0_0_1_n_n.rhsNonContracting by decide)]
  rfl
/-- The operands' indices of the product's sum: at output (r, q) and inner position k they are (r, k) and (k, q). -/
theorem w3_idx (r : Fin 64) (q : Fin 8) (k : Fin 256) :
    Cert.ReferenceIdeal.dot_S64x256_S256x8_S64x8_1_0_0_1_n_n.lhsIdx (ix2 r q) ((contrEquiv1 Cert.ReferenceIdeal.dot_S64x256_S256x8_S64x8_1_0_0_1_n_n 256 rfl rfl).symm k) = ix2 r k
    ∧ Cert.ReferenceIdeal.dot_S64x256_S256x8_S64x8_1_0_0_1_n_n.rhsIdx (ix2 r q) ((contrEquiv1 Cert.ReferenceIdeal.dot_S64x256_S256x8_S64x8_1_0_0_1_n_n 256 rfl rfl).symm k) = ix2 k q := by
  have hk := contrEquiv1_symm_val Cert.ReferenceIdeal.dot_S64x256_S256x8_S64x8_1_0_0_1_n_n 256 rfl rfl k
  refine ⟨funext fun a => Fin.ext ?_, funext fun a => Fin.ext ?_⟩
  · match a with
    | ⟨0, _⟩ => exact w3_l0 _ _
    | ⟨1, _⟩ => exact (w3_l1 _ _).trans hk
  · match a with
    | ⟨0, _⟩ => exact (w3_r0 _ _).trans hk
    | ⟨1, _⟩ => exact w3_r1 _ _

/-- The reference's product of the whole 64 x 256 matrix with the 256 x 8 weights: entry (r, q) is the sum over k of left(r, k) * weights(k, q). -/
theorem whole_256_8 (x : FVec Ideal Cert.ReferenceIdeal.S64x256 .f32) (w : FVec Ideal Cert.ReferenceIdeal.S256x8 .f32) (r : Fin 64) (q : Fin 8) :
    Host.dotGeneral Cert.ReferenceIdeal.dot_S64x256_S256x8_S64x8_1_0_0_1_n_n none x w (ix2 r q) = ∑ k : Fin 256, x (ix2 r k) * w (ix2 k q) := by
  simp only [Host.dotGeneral]
  rw [Ideal.dotGeneral_apply, ← Equiv.sum_comp (contrEquiv1 Cert.ReferenceIdeal.dot_S64x256_S256x8_S64x8_1_0_0_1_n_n 256 rfl rfl).symm]
  refine Finset.sum_congr rfl fun k _ => ?_
  rw [(w3_idx r q k).1, (w3_idx r q k).2]

end Cert.MatmulAtIndex

end
-- ==== Proof.WholeProducts.lean ====
/-
  The four matrix products of the network, as whole-array functions.

  Each of the kernel's launches computes, block of rows by block of rows, the product of a feature
  matrix with a weight matrix. The reference computes the same product in one `dot_general`. This
  module names that whole-array product for the three pairs of shapes that occur (the second and
  third layers share one), and, for each launch, the single host operation "result := left times
  weights" over the kernel's own buffers: the launch will be shown to leave the device's buffers
  exactly as that one operation would.
-/
import proofs.«121509_j40750649704920_1_alg».proof.KernelIdeal
import proofs.«121509_j40750649704920_1_alg».proof.ReferenceIdeal
import proofs.«121509_j40750649704920_1_alg».proof.Proof.Gen.KernelIdeal
import proofs.«121509_j40750649704920_1_alg».proof.Proof.Gen.ReferenceIdeal
import Idealize.ShloMosaic.Lib.StableHlo.Run
import Idealize.ShloMosaic.PureOps.Ideal

noncomputable section

namespace Cert.GcnKernel

open Cert.KernelIdeal Cert.KernelIdeal.Gen Idealize.ShloMosaic Idealize.ShloMosaic.TcCoe Idealize.SL.Sem

/-- Node features (50000 x 128) times the first layer's weights (128 x 256). -/
abbrev prod128 (x : FVec Ideal S50000x128 .f32) (w : FVec Ideal S128x256 .f32) : FVec Ideal S50000x256 .f32 :=
  Host.dotGeneral (F := Ideal) Cert.ReferenceIdeal.dot_S50000x128_S128x256_S50000x256_1_0_0_1_n_n none x w

/-- Hidden features (50000 x 256) times a hidden layer's weights (256 x 256): layers two and three. -/
abbrev prod256 (x : FVec Ideal S50000x256 .f32) (w : FVec Ideal S256x256 .f32) : FVec Ideal S50000x256 .f32 :=
  Host.dotGeneral (F := Ideal) Cert.ReferenceIdeal.dot_S50000x256_S256x256_S50000x256_1_0_0_1_n_n none x w

/-- Pooled graph features (64 x 256) times the classifier's weights (256 x 8). -/
abbrev prodCls (x : FVec Ideal S64x256 .f32) (w : FVec Ideal S256x8 .f32) : FVec Ideal S64x8 .f32 :=
  Host.dotGeneral (F := Ideal) Cert.ReferenceIdeal.dot_S64x256_S256x8_S64x8_1_0_0_1_n_n none x w

/-- The first launch as one host operation: x W1 into the first layer's pre-aggregation features. -/
abbrev dotOp1 : HloOp τ sig (Elt Ideal) := StableHlo.binary main_arg0 main_arg3 main_v28 prod128
/-- The second launch as one host operation: h1 W2. -/
abbrev dotOp2 : HloOp τ sig (Elt Ideal) := StableHlo.binary main_v49 main_arg5 main_v50 prod256
/-- The third launch as one host operation: h2 W3. -/
abbrev dotOp3 : HloOp τ sig (Elt Ideal) := StableHlo.binary main_v71 main_arg7 main_v72 prod256
/-- The fourth launch as one host operation: pooled Wlin. -/
abbrev dotOpCls : HloOp τ sig (Elt Ideal) := StableHlo.binary main_v105 main_arg9 main_v106 prodCls

/-- The zero offset of a whole-block access, as a constant function. -/
theorem zero_offset : (![0, 0] : Fin 2 → Nat) = fun _ => 0 := funext fun a => by fin_cases a <;> rfl

end Cert.GcnKernel

end
-- ==== Proof.Launch1.lean ====
/-
  The first launch: node features times the first layer's weights.

  The launch walks 25 blocks of 2000 rows. At grid point t it stages rows t*2000 .. t*2000+1999 of the
  left matrix and the whole 128 x 256 weight matrix, multiplies them, and writes the 2000 x 256 result back
  to the same rows of the output. Read at an index, what point t writes back is the block of the
  whole product left * weights: entry (p, q) of the block is the sum over k of left(t*2000+p, k) * weights(k, q),
  which is entry (t*2000+p, q) of the whole product. The blocks tile the output (row r lies in block
  r / 2000), so after the launch the output array is the whole product, and every other buffer is as
  the launch found it: the launch leaves the device's buffers as the one host operation
  "output := left times weights" would.
-/
import proofs.«121509_j40750649704920_1_alg».proof.Proof.Gen.KernelIdeal.Frame
import proofs.«121509_j40750649704920_1_alg».proof.Proof.MatmulAtIndex
import proofs.«121509_j40750649704920_1_alg».proof.Proof.WholeProducts
import Idealize.ShloMosaic.Lib.Pipeline.Value

set_option maxRecDepth 16384

noncomputable section

namespace Cert.GcnKernel.Launch1

open Cert.KernelIdeal Cert.KernelIdeal.Gen Cert.GcnKernel
open Idealize.ShloMosaic Idealize.ShloMosaic.TcCoe Idealize.SL.Sem Idealize.ShloMosaic.ValueIdx
open Idealize.ShloMosaic.Pipeline (Dat Cfg Window)

section AtEntryContents
variable (V : (c : Dev nD) → (b : Ref sig .tc) → Buf (Elt Ideal) ((c : Thread nD τ).loc b))

/-- The block indices of the three windows at grid point t: the left matrix and the output move down
    one block of rows per point, the weights stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product of the arrays the launch found. -/
theorem writes_back (c : Dev nD) (t : Fin cfg0.N) :
    (dat0 V c).flushed 2 t = ((cfg0.win 2).blk t).view.read (Elt Ideal) (prod128 (V c main_arg0) (V c main_arg3)) := by
  show (cfg0.win 2).cut (grid0.coords t) ((dat0 V c).after 2 t) = _
  rw [after0_2]
  unfold out0_2
  rw [View.canon_unit_zero zero_offset]
  simp only [View.ld_unit_zero (S := S2000x128) zero_offset, View.ld_unit_zero (S := S128x256) zero_offset]
  obtain ⟨e00, e01, e10, e11, e20, e21⟩ := block_indices t
  have ht : t.val < 25 := lt_of_lt_of_eq t.isLt N_0
  funext j
  obtain ⟨p, q, rfl⟩ : ∃ (p : Fin 2000) (q : Fin 256), j = ix2 p q := ⟨j 0, j 1, eq_ix2 j⟩
  show k0_pay1 (iblk0 V c 0 t) (iblk0 V c 1 t) (ix2 p q)
    = prod128 (V c main_arg0) (V c main_arg3) (((cfg0.win 2).blk t).view.emb (ix2 p q))
  refine (Cert.MatmulAtIndex.block_128_256 _ _ p q).trans ?_
  have hemb : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 256 + 1 * q.val = q.val; omega
  rw [hemb]
  refine Eq.trans ?_ (Cert.MatmulAtIndex.whole_128_256 _ _ _ q).symm
  refine Finset.sum_congr rfl fun k _ => ?_
  have hx : iblk0 V c 0 t (ix2 p k) = V c main_arg0 (ix2 (⟨t.val * 2000 + p.val, by omega⟩ : Fin 50000) k) := by
    show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  have hw : iblk0 V c 1 t (ix2 k q) = V c main_arg3 (ix2 k q) := by
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  rw [hx, hw]

/-- An index of the output lies in point t's block iff each coordinate lies in the block's range. -/
theorem mem_block (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v28).slice (win0_2.rect t)).set ↔ _
  rw [View.set_slice_whole, Rect.mem_set_unit]
  exact Iff.rfl

/-- Every index of the output lies in some point's block: row r in the block of point r / 2000. -/
theorem covers (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hlt : (i 0).val / 2000 < cfg0.N := lt_of_lt_of_eq (by omega : (i 0).val / 2000 < 25) N_0.symm
  refine ⟨⟨(i 0).val / 2000, hlt⟩, flush0_2 _, ?_⟩
  rw [mem_block]
  obtain ⟨-, -, -, -, e20, e21⟩ := block_indices ⟨(i 0).val / 2000, hlt⟩
  have e20' : win0_2.index ⟨(i 0).val / 2000, hlt⟩ (0 : Fin 2) = (i 0).val / 2000 := e20
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 256 ≤ (i 1).val
      ∧ (i 1).val < win0_2.index ⟨(i 0).val / 2000, hlt⟩ (1 : Fin 2) * 256 + 256
    omega

/-- After the launch the output array is the whole product of the arrays the launch found. -/
theorem final_array (c : Dev nD) : (dat0 V c).arrAt 2 cfg0.N = prod128 (V c main_arg0) (V c main_arg3) :=
  (dat0 V c).arrAt_eq_of_cover 2 _ (fun t _ => writes_back V c t) covers

/-- The final array, with the two input arrays named as the launch's windows name them. -/
theorem final_array_windows (c : Dev nD) :
    (dat0 V c).arrAt 2 cfg0.N = prod128 (V c (Pipeline.arrRef spec0 0)) (V c (Pipeline.arrRef spec0 1)) :=
  final_array V c

end AtEntryContents

/-- Over any contents `Wi` of the device's buffers: putting the launch's three arrays at `A` — the two
    inputs as `Wi` has them, the output at their whole product — and leaving every other buffer as in
    `Wi` is the one host operation "output := left times weights" applied to `Wi`. -/
theorem arrays_as_operation (c : Dev nD) (Wi : Valuation τ sig (Elt Ideal))
    (A : (w : Fin 3) → Buf (Elt Ideal) ((spec0 w).arr.view.loc (c.tc : Thread nD τ)))
    (h0 : A 0 = Wi (Proc.devRef .tc (Pipeline.arrRef spec0 0)))
    (h1 : A 1 = Wi (Proc.devRef .tc (Pipeline.arrRef spec0 1)))
    (h2 : A 2 = prod128 (Wi (Proc.devRef .tc (Pipeline.arrRef spec0 0))) (Wi (Proc.devRef .tc (Pipeline.arrRef spec0 1)))) :
    Pipeline.withArrays spec0 c Wi A = (dotOp1).result Wi := by
  funext b
  by_cases h : ∃ w, Proc.devRef .tc (Pipeline.arrRef spec0 w) = b
  · obtain ⟨w, rfl⟩ := h
    rw [Pipeline.withArrays_arr spec0 launch0.win.arr_inj c Wi A w]
    match w with
    | ⟨0, _⟩ => exact h0.trans (StableHlo.binary_result_ne main_arg0 main_arg3 main_v28 prod128 _ _ _ Wi (r := main_arg0) (by decide)).symm
    | ⟨1, _⟩ => exact h1.trans (StableHlo.binary_result_ne main_arg0 main_arg3 main_v28 prod128 _ _ _ Wi (r := main_arg3) (by decide)).symm
    | ⟨2, _⟩ => exact h2.trans (StableHlo.binary_result main_arg0 main_arg3 main_v28 prod128 _ _ _ Wi).symm
  · have hb : b ∉ (dotOp1).writes := by
      rw [StableHlo.binary_writes, Finset.mem_singleton]
      exact fun e => h ⟨2, e.symm⟩
    rw [HloOp.result_of_not_mem _ _ hb]
    unfold Pipeline.withArrays
    rw [dif_neg h]

variable (m : (ℓ : Loc nD τ sig) → Buf (Elt Ideal) ℓ) (ρ : Dev nD → PrngReg)

/-- The device's buffers at the launch's exit are those at its entry with the one host operation
    "output := left times weights" applied: the output holds the whole product, the two input arrays
    are as found, and no other buffer is touched. -/
theorem exit_eq (c : Dev nD) : W2 m ρ c = (dotOp1).result (W1 m ρ c) := by
  unfold W2
  exact arrays_as_operation c (W1 m ρ c) _
    (((dat0 (V1 m ρ) c).arrAt_in 0 rfl _).trans (A_eq0 (V1 m ρ) c 0))
    (((dat0 (V1 m ρ) c).arrAt_in 1 rfl _).trans (A_eq0 (V1 m ρ) c 1))
    (final_array_windows (V1 m ρ) c)

end Cert.GcnKernel.Launch1

end
-- ==== Proof.Launch2.lean ====
/-
  The second launch: the first layer's output times the second layer's weights.

  The launch walks 25 blocks of 2000 rows. At grid point t it stages rows t*2000 .. t*2000+1999 of the
  left matrix and the whole 256 x 256 weight matrix, multiplies them, and writes the 2000 x 256 result back
  to the same rows of the output. Read at an index, what point t writes back is the block of the
  whole product left * weights: entry (p, q) of the block is the sum over k of left(t*2000+p, k) * weights(k, q),
  which is entry (t*2000+p, q) of the whole product. The blocks tile the output (row r lies in block
  r / 2000), so after the launch the output array is the whole product, and every other buffer is as
  the launch found it: the launch leaves the device's buffers as the one host operation
  "output := left times weights" would.
-/
import proofs.«121509_j40750649704920_1_alg».proof.Proof.Gen.KernelIdeal.Frame
import proofs.«121509_j40750649704920_1_alg».proof.Proof.MatmulAtIndex
import proofs.«121509_j40750649704920_1_alg».proof.Proof.WholeProducts
import Idealize.ShloMosaic.Lib.Pipeline.Value

set_option maxRecDepth 16384

noncomputable section

namespace Cert.GcnKernel.Launch2

open Cert.KernelIdeal Cert.KernelIdeal.Gen Cert.GcnKernel
open Idealize.ShloMosaic Idealize.ShloMosaic.TcCoe Idealize.SL.Sem Idealize.ShloMosaic.ValueIdx
open Idealize.ShloMosaic.Pipeline (Dat Cfg Window)

section AtEntryContents
variable (V : (c : Dev nD) → (b : Ref sig .tc) → Buf (Elt Ideal) ((c : Thread nD τ).loc b))

/-- The block indices of the three windows at grid point t: the left matrix and the output move down
    one block of rows per point, the weights stay. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole product of the arrays the launch found. -/
theorem writes_back (c : Dev nD) (t : Fin cfg1.N) :
    (dat1 V c).flushed 2 t = ((cfg1.win 2).blk t).view.read (Elt Ideal) (prod256 (V c main_v49) (V c main_arg5)) := by
  show (cfg1.win 2).cut (grid1.coords t) ((dat1 V c).after 2 t) = _
  rw [after1_2]
  unfold out1_2
  rw [View.canon_unit_zero zero_offset]
  simp only [View.ld_unit_zero (S := S2000x256) zero_offset, View.ld_unit_zero (S := S256x256) zero_offset]
  obtain ⟨e00, e01, e10, e11, e20, e21⟩ := block_indices t
  have ht : t.val < 25 := lt_of_lt_of_eq t.isLt N_1
  funext j
  obtain ⟨p, q, rfl⟩ : ∃ (p : Fin 2000) (q : Fin 256), j = ix2 p q := ⟨j 0, j 1, eq_ix2 j⟩
  show k1_pay1 (iblk1 V c 0 t) (iblk1 V c 1 t) (ix2 p q)
    = prod256 (V c main_v49) (V c main_arg5) (((cfg1.win 2).blk t).view.emb (ix2 p q))
  refine (Cert.MatmulAtIndex.block_256_256_layer2 _ _ p q).trans ?_
  have hemb : ((cfg1.win 2).blk t).view.emb (ix2 p q) = ix2 (⟨t.val * 2000 + p.val, by omega⟩ : Fin 50000) q := by
    funext a; apply Fin.ext
    match a with
    | ⟨0, _⟩ => show win1_2.index t (0 : Fin 2) * 2000 + 1 * p.val = t.val * 2000 + p.val; omega
    | ⟨1, _⟩ => show win1_2.index t (1 : Fin 2) * 256 + 1 * q.val = q.val; omega
  rw [hemb]
  refine Eq.trans ?_ (Cert.MatmulAtIndex.whole_256_256 _ _ _ q).symm
  refine Finset.sum_congr rfl fun k _ => ?_
  have hx : iblk1 V c 0 t (ix2 p k) = V c main_v49 (ix2 (⟨t.val * 2000 + p.val, by omega⟩ : Fin 50000) k) := by
    show V c main_v49 (((cfg1.win 0).blk t).view.emb (ix2 p k)) = _
    refine congrArg (V c main_v49) ?_
    funext a; apply Fin.ext
    match a with
    | ⟨0, _⟩ => show win1_0.index t (0 : Fin 2) * 2000 + 1 * p.val = t.val * 2000 + p.val; omega
    | ⟨1, _⟩ => show win1_0.index t (1 : Fin 2) * 256 + 1 * k.val = k.val; omega
  have hw : iblk1 V c 1 t (ix2 k q) = V c main_arg5 (ix2 k q) := by
    show V c main_arg5 (((cfg1.win 1).blk t).view.emb (ix2 k q)) = _
    refine congrArg (V c main_arg5) ?_
    funext a; apply Fin.ext
    match a with
    | ⟨0, _⟩ => show win1_1.index t (0 : Fin 2) * 256 + 1 * k.val = k.val; omega
    | ⟨1, _⟩ => show win1_1.index t (1 : Fin 2) * 256 + 1 * q.val = q.val; omega
  rw [hx, hw]

/-- An index of the output lies in point t's block iff each coordinate lies in the block's range. -/
theorem mem_block (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v50).slice (win1_2.rect t)).set ↔ _
  rw [View.set_slice_whole, Rect.mem_set_unit]
  exact Iff.rfl

/-- Every index of the output lies in some point's block: row r in the block of point r / 2000. -/
theorem covers (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hlt : (i 0).val / 2000 < cfg1.N := lt_of_lt_of_eq (by omega : (i 0).val / 2000 < 25) N_1.symm
  refine ⟨⟨(i 0).val / 2000, hlt⟩, flush1_2 _, ?_⟩
  rw [mem_block]
  obtain ⟨-, -, -, -, e20, e21⟩ := block_indices ⟨(i 0).val / 2000, hlt⟩
  have e20' : win1_2.index ⟨(i 0).val / 2000, hlt⟩ (0 : Fin 2) = (i 0).val / 2000 := e20
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    omega
  | ⟨1, _⟩ =>
    show win1_2.index ⟨(i 0).val / 2000, hlt⟩ (1 : Fin 2) * 256 ≤ (i 1).val
      ∧ (i 1).val < win1_2.index ⟨(i 0).val / 2000, hlt⟩ (1 : Fin 2) * 256 + 256
    omega

/-- After the launch the output array is the whole product of the arrays the launch found. -/
theorem final_array (c : Dev nD) : (dat1 V c).arrAt 2 cfg1.N = prod256 (V c main_v49) (V c main_arg5) :=
  (dat1 V c).arrAt_eq_of_cover 2 _ (fun t _ => writes_back V c t) covers

/-- The final array, with the two input arrays named as the launch's windows name them. -/
theorem final_array_windows (c : Dev nD) :
    (dat1 V c).arrAt 2 cfg1.N = prod256 (V c (Pipeline.arrRef spec1 0)) (V c (Pipeline.arrRef spec1 1)) :=
  final_array V c

end AtEntryContents

/-- Over any contents `Wi` of the device's buffers: putting the launch's three arrays at `A` — the two
    inputs as `Wi` has them, the output at their whole product — and leaving every other buffer as in
    `Wi` is the one host operation "output := left times weights" applied to `Wi`. -/
theorem arrays_as_operation (c : Dev nD) (Wi : Valuation τ sig (Elt Ideal))
    (A : (w : Fin 3) → Buf (Elt Ideal) ((spec1 w).arr.view.loc (c.tc : Thread nD τ)))
    (h0 : A 0 = Wi (Proc.devRef .tc (Pipeline.arrRef spec1 0)))
    (h1 : A 1 = Wi (Proc.devRef .tc (Pipeline.arrRef spec1 1)))
    (h2 : A 2 = prod256 (Wi (Proc.devRef .tc (Pipeline.arrRef spec1 0))) (Wi (Proc.devRef .tc (Pipeline.arrRef spec1 1)))) :
    Pipeline.withArrays spec1 c Wi A = (dotOp2).result Wi := by
  funext b
  by_cases h : ∃ w, Proc.devRef .tc (Pipeline.arrRef spec1 w) = b
  · obtain ⟨w, rfl⟩ := h
    rw [Pipeline.withArrays_arr spec1 launch1.win.arr_inj c Wi A w]
    match w with
    | ⟨0, _⟩ => exact h0.trans (StableHlo.binary_result_ne main_v49 main_arg5 main_v50 prod256 _ _ _ Wi (r := main_v49) (by decide)).symm
    | ⟨1, _⟩ => exact h1.trans (StableHlo.binary_result_ne main_v49 main_arg5 main_v50 prod256 _ _ _ Wi (r := main_arg5) (by decide)).symm
    | ⟨2, _⟩ => exact h2.trans (StableHlo.binary_result main_v49 main_arg5 main_v50 prod256 _ _ _ Wi).symm
  · have hb : b ∉ (dotOp2).writes := by
      rw [StableHlo.binary_writes, Finset.mem_singleton]
      exact fun e => h ⟨2, e.symm⟩
    rw [HloOp.result_of_not_mem _ _ hb]
    unfold Pipeline.withArrays
    rw [dif_neg h]

variable (m : (ℓ : Loc nD τ sig) → Buf (Elt Ideal) ℓ) (ρ : Dev nD → PrngReg)

/-- The device's buffers at the launch's exit are those at its entry with the one host operation
    "output := left times weights" applied: the output holds the whole product, the two input arrays
    are as found, and no other buffer is touched. -/
theorem exit_eq (c : Dev nD) : W5 m ρ c = (dotOp2).result (W4 m ρ c) := by
  unfold W5
  exact arrays_as_operation c (W4 m ρ c) _
    (((dat1 (V4 m ρ) c).arrAt_in 0 rfl _).trans (A_eq1 (V4 m ρ) c 0))
    (((dat1 (V4 m ρ) c).arrAt_in 1 rfl _).trans (A_eq1 (V4 m ρ) c 1))
    (final_array_windows (V4 m ρ) c)

end Cert.GcnKernel.Launch2

end
-- ==== Proof.Launch3.lean ====
/-
  The third launch: the second layer's output times the third layer's weights.

  The launch walks 25 blocks of 2000 rows. At grid point t it stages rows t*2000 .. t*2000+1999 of the
  left matrix and the whole 256 x 256 weight matrix, multiplies them, and writes the 2000 x 256 result back
  to the same rows of the output. Read at an index, what point t writes back is the block of the
  whole product left * weights: entry (p, q) of the block is the sum over k of left(t*2000+p, k) * weights(k, q),
  which is entry (t*2000+p, q) of the whole product. The blocks tile the output (row r lies in block
  r / 2000), so after the launch the output array is the whole product, and every other buffer is as
  the launch found it: the launch leaves the device's buffers as the one host operation
  "output := left times weights" would.
-/
import proofs.«121509_j40750649704920_1_alg».proof.Proof.Gen.KernelIdeal.Frame
import proofs.«121509_j40750649704920_1_alg».proof.Proof.MatmulAtIndex
import proofs.«121509_j40750649704920_1_alg».proof.Proof.WholeProducts
import Idealize.ShloMosaic.Lib.Pipeline.Value

set_option maxRecDepth 16384

noncomputable section

namespace Cert.GcnKernel.Launch3

open Cert.KernelIdeal Cert.KernelIdeal.Gen Cert.GcnKernel
open Idealize.ShloMosaic Idealize.ShloMosaic.TcCoe Idealize.SL.Sem Idealize.ShloMosaic.ValueIdx
open Idealize.ShloMosaic.Pipeline (Dat Cfg Window)

section AtEntryContents
variable (V : (c : Dev nD) → (b : Ref sig .tc) → Buf (Elt Ideal) ((c : Thread nD τ).loc b))

/-- The block indices of the three windows at grid point t: the left matrix and the output move down
    one block of rows per point, the weights stay. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the whole product of the arrays the launch found. -/
theorem writes_back (c : Dev nD) (t : Fin cfg2.N) :
    (dat2 V c).flushed 2 t = ((cfg2.win 2).blk t).view.read (Elt Ideal) (prod256 (V c main_v71) (V c main_arg7)) := by
  show (cfg2.win 2).cut (grid2.coords t) ((dat2 V c).after 2 t) = _
  rw [after2_2]
  unfold out2_2
  rw [View.canon_unit_zero zero_offset]
  simp only [View.ld_unit_zero (S := S2000x256) zero_offset, View.ld_unit_zero (S := S256x256) zero_offset]
  obtain ⟨e00, e01, e10, e11, e20, e21⟩ := block_indices t
  have ht : t.val < 25 := lt_of_lt_of_eq t.isLt N_2
  funext j
  obtain ⟨p, q, rfl⟩ : ∃ (p : Fin 2000) (q : Fin 256), j = ix2 p q := ⟨j 0, j 1, eq_ix2 j⟩
  show k2_pay1 (iblk2 V c 0 t) (iblk2 V c 1 t) (ix2 p q)
    = prod256 (V c main_v71) (V c main_arg7) (((cfg2.win 2).blk t).view.emb (ix2 p q))
  refine (Cert.MatmulAtIndex.block_256_256_layer3 _ _ p q).trans ?_
  have hemb : ((cfg2.win 2).blk t).view.emb (ix2 p q) = ix2 (⟨t.val * 2000 + p.val, by omega⟩ : Fin 50000) q := by
    funext a; apply Fin.ext
    match a with
    | ⟨0, _⟩ => show win2_2.index t (0 : Fin 2) * 2000 + 1 * p.val = t.val * 2000 + p.val; omega
    | ⟨1, _⟩ => show win2_2.index t (1 : Fin 2) * 256 + 1 * q.val = q.val; omega
  rw [hemb]
  refine Eq.trans ?_ (Cert.MatmulAtIndex.whole_256_256 _ _ _ q).symm
  refine Finset.sum_congr rfl fun k _ => ?_
  have hx : iblk2 V c 0 t (ix2 p k) = V c main_v71 (ix2 (⟨t.val * 2000 + p.val, by omega⟩ : Fin 50000) k) := by
    show V c main_v71 (((cfg2.win 0).blk t).view.emb (ix2 p k)) = _
    refine congrArg (V c main_v71) ?_
    funext a; apply Fin.ext
    match a with
    | ⟨0, _⟩ => show win2_0.index t (0 : Fin 2) * 2000 + 1 * p.val = t.val * 2000 + p.val; omega
    | ⟨1, _⟩ => show win2_0.index t (1 : Fin 2) * 256 + 1 * k.val = k.val; omega
  have hw : iblk2 V c 1 t (ix2 k q) = V c main_arg7 (ix2 k q) := by
    show V c main_arg7 (((cfg2.win 1).blk t).view.emb (ix2 k q)) = _
    refine congrArg (V c main_arg7) ?_
    funext a; apply Fin.ext
    match a with
    | ⟨0, _⟩ => show win2_1.index t (0 : Fin 2) * 256 + 1 * k.val = k.val; omega
    | ⟨1, _⟩ => show win2_1.index t (1 : Fin 2) * 256 + 1 * q.val = q.val; omega
  rw [hx, hw]

/-- An index of the output lies in point t's block iff each coordinate lies in the block's range. -/
theorem mem_block (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v72).slice (win2_2.rect t)).set ↔ _
  rw [View.set_slice_whole, Rect.mem_set_unit]
  exact Iff.rfl

/-- Every index of the output lies in some point's block: row r in the block of point r / 2000. -/
theorem covers (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hlt : (i 0).val / 2000 < cfg2.N := lt_of_lt_of_eq (by omega : (i 0).val / 2000 < 25) N_2.symm
  refine ⟨⟨(i 0).val / 2000, hlt⟩, flush2_2 _, ?_⟩
  rw [mem_block]
  obtain ⟨-, -, -, -, e20, e21⟩ := block_indices ⟨(i 0).val / 2000, hlt⟩
  have e20' : win2_2.index ⟨(i 0).val / 2000, hlt⟩ (0 : Fin 2) = (i 0).val / 2000 := e20
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    omega
  | ⟨1, _⟩ =>
    show win2_2.index ⟨(i 0).val / 2000, hlt⟩ (1 : Fin 2) * 256 ≤ (i 1).val
      ∧ (i 1).val < win2_2.index ⟨(i 0).val / 2000, hlt⟩ (1 : Fin 2) * 256 + 256
    omega

/-- After the launch the output array is the whole product of the arrays the launch found. -/
theorem final_array (c : Dev nD) : (dat2 V c).arrAt 2 cfg2.N = prod256 (V c main_v71) (V c main_arg7) :=
  (dat2 V c).arrAt_eq_of_cover 2 _ (fun t _ => writes_back V c t) covers

/-- The final array, with the two input arrays named as the launch's windows name them. -/
theorem final_array_windows (c : Dev nD) :
    (dat2 V c).arrAt 2 cfg2.N = prod256 (V c (Pipeline.arrRef spec2 0)) (V c (Pipeline.arrRef spec2 1)) :=
  final_array V c

end AtEntryContents

/-- Over any contents `Wi` of the device's buffers: putting the launch's three arrays at `A` — the two
    inputs as `Wi` has them, the output at their whole product — and leaving every other buffer as in
    `Wi` is the one host operation "output := left times weights" applied to `Wi`. -/
theorem arrays_as_operation (c : Dev nD) (Wi : Valuation τ sig (Elt Ideal))
    (A : (w : Fin 3) → Buf (Elt Ideal) ((spec2 w).arr.view.loc (c.tc : Thread nD τ)))
    (h0 : A 0 = Wi (Proc.devRef .tc (Pipeline.arrRef spec2 0)))
    (h1 : A 1 = Wi (Proc.devRef .tc (Pipeline.arrRef spec2 1)))
    (h2 : A 2 = prod256 (Wi (Proc.devRef .tc (Pipeline.arrRef spec2 0))) (Wi (Proc.devRef .tc (Pipeline.arrRef spec2 1)))) :
    Pipeline.withArrays spec2 c Wi A = (dotOp3).result Wi := by
  funext b
  by_cases h : ∃ w, Proc.devRef .tc (Pipeline.arrRef spec2 w) = b
  · obtain ⟨w, rfl⟩ := h
    rw [Pipeline.withArrays_arr spec2 launch2.win.arr_inj c Wi A w]
    match w with
    | ⟨0, _⟩ => exact h0.trans (StableHlo.binary_result_ne main_v71 main_arg7 main_v72 prod256 _ _ _ Wi (r := main_v71) (by decide)).symm
    | ⟨1, _⟩ => exact h1.trans (StableHlo.binary_result_ne main_v71 main_arg7 main_v72 prod256 _ _ _ Wi (r := main_arg7) (by decide)).symm
    | ⟨2, _⟩ => exact h2.trans (StableHlo.binary_result main_v71 main_arg7 main_v72 prod256 _ _ _ Wi).symm
  · have hb : b ∉ (dotOp3).writes := by
      rw [StableHlo.binary_writes, Finset.mem_singleton]
      exact fun e => h ⟨2, e.symm⟩
    rw [HloOp.result_of_not_mem _ _ hb]
    unfold Pipeline.withArrays
    rw [dif_neg h]

variable (m : (ℓ : Loc nD τ sig) → Buf (Elt Ideal) ℓ) (ρ : Dev nD → PrngReg)

/-- The device's buffers at the launch's exit are those at its entry with the one host operation
    "output := left times weights" applied: the output holds the whole product, the two input arrays
    are as found, and no other buffer is touched. -/
theorem exit_eq (c : Dev nD) : W8 m ρ c = (dotOp3).result (W7 m ρ c) := by
  unfold W8
  exact arrays_as_operation c (W7 m ρ c) _
    (((dat2 (V7 m ρ) c).arrAt_in 0 rfl _).trans (A_eq2 (V7 m ρ) c 0))
    (((dat2 (V7 m ρ) c).arrAt_in 1 rfl _).trans (A_eq2 (V7 m ρ) c 1))
    (final_array_windows (V7 m ρ) c)

end Cert.GcnKernel.Launch3

end
-- ==== Proof.LaunchCls.lean ====
/-
  The fourth launch: the pooled graph features times the classifier's weights.

  The launch walks 1 block of 64 rows. At grid point t it stages rows 0 .. 63 of the
  left matrix and the whole 256 x 8 weight matrix, multiplies them, and writes the 64 x 8 result back
  to the same rows of the output. Read at an index, what point t writes back is the block of the
  whole product left * weights: entry (p, q) of the block is the sum over k of left(t*64+p, k) * weights(k, q),
  which is entry (t*64+p, q) of the whole product. The blocks tile the output (row r lies in block
  r / 64), so after the launch the output array is the whole product, and every other buffer is as
  the launch found it: the launch leaves the device's buffers as the one host operation
  "output := left times weights" would.
-/
import proofs.«121509_j40750649704920_1_alg».proof.Proof.Gen.KernelIdeal.Frame
import proofs.«121509_j40750649704920_1_alg».proof.Proof.MatmulAtIndex
import proofs.«121509_j40750649704920_1_alg».proof.Proof.WholeProducts
import Idealize.ShloMosaic.Lib.Pipeline.Value

set_option maxRecDepth 16384

noncomputable section

namespace Cert.GcnKernel.LaunchCls

open Cert.KernelIdeal Cert.KernelIdeal.Gen Cert.GcnKernel
open Idealize.ShloMosaic Idealize.ShloMosaic.TcCoe Idealize.SL.Sem Idealize.ShloMosaic.ValueIdx
open Idealize.ShloMosaic.Pipeline (Dat Cfg Window)

section AtEntryContents
variable (V : (c : Dev nD) → (b : Ref sig .tc) → Buf (Elt Ideal) ((c : Thread nD τ).loc b))

/-- The block indices of the three windows at grid point t: the left matrix and the output move down
    one block of rows per point, the weights stay. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the whole product of the arrays the launch found. -/
theorem writes_back (c : Dev nD) (t : Fin cfg3.N) :
    (dat3 V c).flushed 2 t = ((cfg3.win 2).blk t).view.read (Elt Ideal) (prodCls (V c main_v105) (V c main_arg9)) := by
  show (cfg3.win 2).cut (grid3.coords t) ((dat3 V c).after 2 t) = _
  rw [after3_2]
  unfold out3_2
  rw [View.canon_unit_zero zero_offset]
  simp only [View.ld_unit_zero (S := S64x256) zero_offset, View.ld_unit_zero (S := S256x8) zero_offset]
  obtain ⟨e00, e01, e10, e11, e20, e21⟩ := block_indices t
  have ht : t.val < 1 := lt_of_lt_of_eq t.isLt N_3
  funext j
  obtain ⟨p, q, rfl⟩ : ∃ (p : Fin 64) (q : Fin 8), j = ix2 p q := ⟨j 0, j 1, eq_ix2 j⟩
  show k3_pay1 (iblk3 V c 0 t) (iblk3 V c 1 t) (ix2 p q)
    = prodCls (V c main_v105) (V c main_arg9) (((cfg3.win 2).blk t).view.emb (ix2 p q))
  refine (Cert.MatmulAtIndex.block_256_8 _ _ p q).trans ?_
  have hemb : ((cfg3.win 2).blk t).view.emb (ix2 p q) = ix2 (⟨t.val * 64 + p.val, by omega⟩ : Fin 64) q := by
    funext a; apply Fin.ext
    match a with
    | ⟨0, _⟩ => show win3_2.index t (0 : Fin 2) * 64 + 1 * p.val = t.val * 64 + p.val; omega
    | ⟨1, _⟩ => show win3_2.index t (1 : Fin 2) * 8 + 1 * q.val = q.val; omega
  rw [hemb]
  refine Eq.trans ?_ (Cert.MatmulAtIndex.whole_256_8 _ _ _ q).symm
  refine Finset.sum_congr rfl fun k _ => ?_
  have hx : iblk3 V c 0 t (ix2 p k) = V c main_v105 (ix2 (⟨t.val * 64 + p.val, by omega⟩ : Fin 64) k) := by
    show V c main_v105 (((cfg3.win 0).blk t).view.emb (ix2 p k)) = _
    refine congrArg (V c main_v105) ?_
    funext a; apply Fin.ext
    match a with
    | ⟨0, _⟩ => show win3_0.index t (0 : Fin 2) * 64 + 1 * p.val = t.val * 64 + p.val; omega
    | ⟨1, _⟩ => show win3_0.index t (1 : Fin 2) * 256 + 1 * k.val = k.val; omega
  have hw : iblk3 V c 1 t (ix2 k q) = V c main_arg9 (ix2 k q) := by
    show V c main_arg9 (((cfg3.win 1).blk t).view.emb (ix2 k q)) = _
    refine congrArg (V c main_arg9) ?_
    funext a; apply Fin.ext
    match a with
    | ⟨0, _⟩ => show win3_1.index t (0 : Fin 2) * 256 + 1 * k.val = k.val; omega
    | ⟨1, _⟩ => show win3_1.index t (1 : Fin 2) * 8 + 1 * q.val = q.val; omega
  rw [hx, hw]

/-- An index of the output lies in point t's block iff each coordinate lies in the block's range. -/
theorem mem_block (t : Fin cfg3.N) (i : S64x8.Idx) :
    i ∈ ((cfg3.win 2).blk t).view.set ↔ ∀ a : Fin 2, win3_2.index t a * S64x8.size a ≤ (i a).val
      ∧ (i a).val < win3_2.index t a * S64x8.size a + S64x8.size a := by
  show i ∈ ((View.whole main_v106).slice (win3_2.rect t)).set ↔ _
  rw [View.set_slice_whole, Rect.mem_set_unit]
  exact Iff.rfl

/-- Every index of the output lies in some point's block: row r in the block of point r / 64. -/
theorem covers (i : S64x8.Idx) : ∃ t : Fin cfg3.N, (cfg3.win 2).flush t = true ∧ i ∈ ((cfg3.win 2).blk t).view.set := by
  have hi0 : (i 0).val < 64 := (i 0).isLt
  have hi1 : (i 1).val < 8 := (i 1).isLt
  have hlt : (i 0).val / 64 < cfg3.N := lt_of_lt_of_eq (by omega : (i 0).val / 64 < 1) N_3.symm
  refine ⟨⟨(i 0).val / 64, hlt⟩, flush3_2 _, ?_⟩
  rw [mem_block]
  obtain ⟨-, -, -, -, e20, e21⟩ := block_indices ⟨(i 0).val / 64, hlt⟩
  have e20' : win3_2.index ⟨(i 0).val / 64, hlt⟩ (0 : Fin 2) = (i 0).val / 64 := e20
  intro a
  match a with
  | ⟨0, _⟩ =>
    show win3_2.index ⟨(i 0).val / 64, hlt⟩ (0 : Fin 2) * 64 ≤ (i 0).val
      ∧ (i 0).val < win3_2.index ⟨(i 0).val / 64, hlt⟩ (0 : Fin 2) * 64 + 64
    omega
  | ⟨1, _⟩ =>
    show win3_2.index ⟨(i 0).val / 64, hlt⟩ (1 : Fin 2) * 8 ≤ (i 1).val
      ∧ (i 1).val < win3_2.index ⟨(i 0).val / 64, hlt⟩ (1 : Fin 2) * 8 + 8
    omega

/-- After the launch the output array is the whole product of the arrays the launch found. -/
theorem final_array (c : Dev nD) : (dat3 V c).arrAt 2 cfg3.N = prodCls (V c main_v105) (V c main_arg9) :=
  (dat3 V c).arrAt_eq_of_cover 2 _ (fun t _ => writes_back V c t) covers

/-- The final array, with the two input arrays named as the launch's windows name them. -/
theorem final_array_windows (c : Dev nD) :
    (dat3 V c).arrAt 2 cfg3.N = prodCls (V c (Pipeline.arrRef spec3 0)) (V c (Pipeline.arrRef spec3 1)) :=
  final_array V c

end AtEntryContents

/-- Over any contents `Wi` of the device's buffers: putting the launch's three arrays at `A` — the two
    inputs as `Wi` has them, the output at their whole product — and leaving every other buffer as in
    `Wi` is the one host operation "output := left times weights" applied to `Wi`. -/
theorem arrays_as_operation (c : Dev nD) (Wi : Valuation τ sig (Elt Ideal))
    (A : (w : Fin 3) → Buf (Elt Ideal) ((spec3 w).arr.view.loc (c.tc : Thread nD τ)))
    (h0 : A 0 = Wi (Proc.devRef .tc (Pipeline.arrRef spec3 0)))
    (h1 : A 1 = Wi (Proc.devRef .tc (Pipeline.arrRef spec3 1)))
    (h2 : A 2 = prodCls (Wi (Proc.devRef .tc (Pipeline.arrRef spec3 0))) (Wi (Proc.devRef .tc (Pipeline.arrRef spec3 1)))) :
    Pipeline.withArrays spec3 c Wi A = (dotOpCls).result Wi := by
  funext b
  by_cases h : ∃ w, Proc.devRef .tc (Pipeline.arrRef spec3 w) = b
  · obtain ⟨w, rfl⟩ := h
    rw [Pipeline.withArrays_arr spec3 launch3.win.arr_inj c Wi A w]
    match w with
    | ⟨0, _⟩ => exact h0.trans (StableHlo.binary_result_ne main_v105 main_arg9 main_v106 prodCls _ _ _ Wi (r := main_v105) (by decide)).symm
    | ⟨1, _⟩ => exact h1.trans (StableHlo.binary_result_ne main_v105 main_arg9 main_v106 prodCls _ _ _ Wi (r := main_arg9) (by decide)).symm
    | ⟨2, _⟩ => exact h2.trans (StableHlo.binary_result main_v105 main_arg9 main_v106 prodCls _ _ _ Wi).symm
  · have hb : b ∉ (dotOpCls).writes := by
      rw [StableHlo.binary_writes, Finset.mem_singleton]
      exact fun e => h ⟨2, e.symm⟩
    rw [HloOp.result_of_not_mem _ _ hb]
    unfold Pipeline.withArrays
    rw [dif_neg h]

variable (m : (ℓ : Loc nD τ sig) → Buf (Elt Ideal) ℓ) (ρ : Dev nD → PrngReg)

/-- The device's buffers at the launch's exit are those at its entry with the one host operation
    "output := left times weights" applied: the output holds the whole product, the two input arrays
    are as found, and no other buffer is touched. -/
theorem exit_eq (c : Dev nD) : W12 m ρ c = (dotOpCls).result (W11 m ρ c) := by
  unfold W12
  exact arrays_as_operation c (W11 m ρ c) _
    (((dat3 (V11 m ρ) c).arrAt_in 0 rfl _).trans (A_eq3 (V11 m ρ) c 0))
    (((dat3 (V11 m ρ) c).arrAt_in 1 rfl _).trans (A_eq3 (V11 m ρ) c 1))
    (final_array_windows (V11 m ρ) c)

end Cert.GcnKernel.LaunchCls

end
-- ==== Proof.StageValues.lean ====
/-
  One stretch of host operations at a time.

  Between two launches the program runs a stretch of host operations. Each lemma here reads one such
  stretch at one buffer, over ANY contents `X` of the device's buffers at the stretch's beginning of
  which only a few facts are assumed: what the edges' endpoints, the inverse degrees, the edge
  coefficients and the current features hold — as values of the reference's own stage functions of the
  argument arrays — and which arrays the arguments still to be used are. The stretch's result is then
  the reference's next stage function of the same arrays: a graph convolution's pre-activation
  (gather the transformed features along the edges, scale by the edge coefficient, scatter-add to the
  destination nodes, add the transformed features over the degree, add the bias), the clamp at zero,
  the per-graph mean, the logits. The launches' own results enter as the one `dot_general` each launch
  amounts to. A second kind of lemma says which buffers a stretch leaves alone.
-/
import proofs.«121509_j40750649704920_1_alg».proof.Proof.Gen.KernelIdeal.Launch
import proofs.«121509_j40750649704920_1_alg».proof.Proof.Gen.ReferenceIdeal.Read
import proofs.«121509_j40750649704920_1_alg».proof.Proof.WholeProducts

set_option maxRecDepth 16384

noncomputable section

namespace Cert.GcnKernel.Stage

open Cert.KernelIdeal Cert.KernelIdeal.Gen Cert.GcnKernel
open Idealize.ShloMosaic Idealize.ShloMosaic.TcCoe Idealize.SL.Sem Idealize.ShloMosaic.StableHlo

/-! ## After the first launch: the first layer -/

set_option maxHeartbeats 4000000 in
/-- The first layer's pre-activation, from x W1 (the first launch's one operation). -/
theorem layer1_pre (X : Valuation τ sig (Elt Ideal)) (a0 : (⟨S50000x128, .f32⟩ : BufTy).Contents (Elt Ideal)) (a1 : (⟨S2x800000, .i32⟩ : BufTy).Contents (Elt Ideal)) (a3 : (⟨S128x256, .f32⟩ : BufTy).Contents (Elt Ideal)) (a4 : (⟨S256, .f32⟩ : BufTy).Contents (Elt Ideal))
    (e1 : X (Proc.devRef .tc main_v1) = Cert.ReferenceIdeal.Read.val_main_v1 (F := Ideal) a1)
    (e3 : X (Proc.devRef .tc main_v3) = Cert.ReferenceIdeal.Read.val_main_v3 (F := Ideal) a1)
    (e12 : X (Proc.devRef .tc main_v12) = Cert.ReferenceIdeal.Read.val_main_v12 (F := Ideal) a1)
    (e27 : X (Proc.devRef .tc main_v27) = Cert.ReferenceIdeal.Read.val_main_v27 (F := Ideal) a1)
    (g0 : X (Proc.devRef .tc main_arg0) = a0) (g3 : X (Proc.devRef .tc main_arg3) = a3) (g4 : X (Proc.devRef .tc main_arg4) = a4) :
    after hostOps1 ((dotOp1).result X) (Proc.devRef .tc main_v48) = Cert.ReferenceIdeal.Read.val_main_v48 (F := Ideal) a0 a1 a3 a4 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      e1, e3, e12, e27, g0, g3, g4]
  rfl

set_option maxHeartbeats 4000000 in
/-- The outlined clamp at zero after the first layer: the new features are the maximum of the
    pre-activation and the zero array. -/
theorem layer1_relu (V : Valuation τ sig (Elt Ideal)) :
    after hostOps1_1 V (Proc.devRef .tc main_v49)
      = maximumf (F := Ideal) (s := S50000x256) (φ := .f32) (V (Proc.devRef .tc main_v48)) (Cert.ReferenceIdeal.Read.val_main_call0_v0 (F := Ideal)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The first layer's stretch and its clamp leave the edge data and the later arguments alone. -/
theorem layer1_keeps (X : Valuation τ sig (Elt Ideal)) :
    after hostOps1_1 (after hostOps1 ((dotOp1).result X)) (Proc.devRef .tc main_v1) = X (Proc.devRef .tc main_v1)
    ∧ after hostOps1_1 (after hostOps1 ((dotOp1).result X)) (Proc.devRef .tc main_v3) = X (Proc.devRef .tc main_v3)
    ∧ after hostOps1_1 (after hostOps1 ((dotOp1).result X)) (Proc.devRef .tc main_v12) = X (Proc.devRef .tc main_v12)
    ∧ after hostOps1_1 (after hostOps1 ((dotOp1).result X)) (Proc.devRef .tc main_v27) = X (Proc.devRef .tc main_v27)
    ∧ after hostOps1_1 (after hostOps1 ((dotOp1).result X)) (Proc.devRef .tc main_arg2) = X (Proc.devRef .tc main_arg2)
    ∧ after hostOps1_1 (after hostOps1 ((dotOp1).result X)) (Proc.devRef .tc main_arg5) = X (Proc.devRef .tc main_arg5)
    ∧ after hostOps1_1 (after hostOps1 ((dotOp1).result X)) (Proc.devRef .tc main_arg6) = X (Proc.devRef .tc main_arg6)
    ∧ after hostOps1_1 (after hostOps1 ((dotOp1).result X)) (Proc.devRef .tc main_arg7) = X (Proc.devRef .tc main_arg7)
    ∧ after hostOps1_1 (after hostOps1 ((dotOp1).result X)) (Proc.devRef .tc main_arg8) = X (Proc.devRef .tc main_arg8)
    ∧ after hostOps1_1 (after hostOps1 ((dotOp1).result X)) (Proc.devRef .tc main_arg9) = X (Proc.devRef .tc main_arg9)
    ∧ after hostOps1_1 (after hostOps1 ((dotOp1).result X)) (Proc.devRef .tc main_arg10) = X (Proc.devRef .tc main_arg10) := by
  refine ⟨?_, ?_, ?_, ?_, ?_, ?_, ?_, ?_, ?_, ?_, ?_⟩ <;>
    (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-! ## After the second launch: the second layer -/

set_option maxHeartbeats 4000000 in
/-- The second layer's pre-activation, from h1 W2 (the second launch's one operation). -/
theorem layer2_pre (X : Valuation τ sig (Elt Ideal)) (a0 : (⟨S50000x128, .f32⟩ : BufTy).Contents (Elt Ideal)) (a1 : (⟨S2x800000, .i32⟩ : BufTy).Contents (Elt Ideal)) (a3 : (⟨S128x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal))
    (h : X (Proc.devRef .tc main_v49) = Cert.ReferenceIdeal.Read.val_main_v49 (F := Ideal) a0 a1 a3 a4)
    (e1 : X (Proc.devRef .tc main_v1) = Cert.ReferenceIdeal.Read.val_main_v1 (F := Ideal) a1)
    (e3 : X (Proc.devRef .tc main_v3) = Cert.ReferenceIdeal.Read.val_main_v3 (F := Ideal) a1)
    (e12 : X (Proc.devRef .tc main_v12) = Cert.ReferenceIdeal.Read.val_main_v12 (F := Ideal) a1)
    (e27 : X (Proc.devRef .tc main_v27) = Cert.ReferenceIdeal.Read.val_main_v27 (F := Ideal) a1)
    (g5 : X (Proc.devRef .tc main_arg5) = a5) (g6 : X (Proc.devRef .tc main_arg6) = a6) :
    after hostOps2 ((dotOp2).result X) (Proc.devRef .tc main_v70) = Cert.ReferenceIdeal.Read.val_main_v70 (F := Ideal) a0 a1 a3 a4 a5 a6 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      h, e1, e3, e12, e27, g5, g6]
  rfl

set_option maxHeartbeats 4000000 in
/-- The outlined clamp at zero after the second layer: the new features are the maximum of the
    pre-activation and the zero array. -/
theorem layer2_relu (V : Valuation τ sig (Elt Ideal)) :
    after hostOps2_1 V (Proc.devRef .tc main_v71)
      = maximumf (F := Ideal) (s := S50000x256) (φ := .f32) (V (Proc.devRef .tc main_v70)) (Cert.ReferenceIdeal.Read.val_main_call1_v0 (F := Ideal)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The second layer's stretch and its clamp leave the edge data and the later arguments alone. -/
theorem layer2_keeps (X : Valuation τ sig (Elt Ideal)) :
    after hostOps2_1 (after hostOps2 ((dotOp2).result X)) (Proc.devRef .tc main_v1) = X (Proc.devRef .tc main_v1)
    ∧ after hostOps2_1 (after hostOps2 ((dotOp2).result X)) (Proc.devRef .tc main_v3) = X (Proc.devRef .tc main_v3)
    ∧ after hostOps2_1 (after hostOps2 ((dotOp2).result X)) (Proc.devRef .tc main_v12) = X (Proc.devRef .tc main_v12)
    ∧ after hostOps2_1 (after hostOps2 ((dotOp2).result X)) (Proc.devRef .tc main_v27) = X (Proc.devRef .tc main_v27)
    ∧ after hostOps2_1 (after hostOps2 ((dotOp2).result X)) (Proc.devRef .tc main_arg2) = X (Proc.devRef .tc main_arg2)
    ∧ after hostOps2_1 (after hostOps2 ((dotOp2).result X)) (Proc.devRef .tc main_arg7) = X (Proc.devRef .tc main_arg7)
    ∧ after hostOps2_1 (after hostOps2 ((dotOp2).result X)) (Proc.devRef .tc main_arg8) = X (Proc.devRef .tc main_arg8)
    ∧ after hostOps2_1 (after hostOps2 ((dotOp2).result X)) (Proc.devRef .tc main_arg9) = X (Proc.devRef .tc main_arg9)
    ∧ after hostOps2_1 (after hostOps2 ((dotOp2).result X)) (Proc.devRef .tc main_arg10) = X (Proc.devRef .tc main_arg10) := by
  refine ⟨?_, ?_, ?_, ?_, ?_, ?_, ?_, ?_, ?_⟩ <;>
    (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-! ## After the third launch: the third layer and the pooling -/

set_option maxHeartbeats 4000000 in
/-- The third layer's pre-activation, from h2 W3 (the third launch's one operation). -/
theorem layer3_pre (X : Valuation τ sig (Elt Ideal)) (a0 : (⟨S50000x128, .f32⟩ : BufTy).Contents (Elt Ideal)) (a1 : (⟨S2x800000, .i32⟩ : BufTy).Contents (Elt Ideal)) (a3 : (⟨S128x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal)) (a7 : (⟨S256x256, .f32⟩ : BufTy).Contents (Elt Ideal)) (a8 : (⟨S256, .f32⟩ : BufTy).Contents (Elt Ideal))
    (h : X (Proc.devRef .tc main_v71) = Cert.ReferenceIdeal.Read.val_main_v71 (F := Ideal) a0 a1 a3 a4 a5 a6)
    (e1 : X (Proc.devRef .tc main_v1) = Cert.ReferenceIdeal.Read.val_main_v1 (F := Ideal) a1)
    (e3 : X (Proc.devRef .tc main_v3) = Cert.ReferenceIdeal.Read.val_main_v3 (F := Ideal) a1)
    (e12 : X (Proc.devRef .tc main_v12) = Cert.ReferenceIdeal.Read.val_main_v12 (F := Ideal) a1)
    (e27 : X (Proc.devRef .tc main_v27) = Cert.ReferenceIdeal.Read.val_main_v27 (F := Ideal) a1)
    (g7 : X (Proc.devRef .tc main_arg7) = a7) (g8 : X (Proc.devRef .tc main_arg8) = a8) :
    after hostOps3 ((dotOp3).result X) (Proc.devRef .tc main_v92) = Cert.ReferenceIdeal.Read.val_main_v92 (F := Ideal) a0 a1 a3 a4 a5 a6 a7 a8 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      h, e1, e3, e12, e27, g7, g8]
  rfl

set_option maxHeartbeats 4000000 in
/-- The outlined clamp at zero after the third layer: the new features are the maximum of the
    pre-activation and the zero array. -/
theorem layer3_relu (V : Valuation τ sig (Elt Ideal)) :
    after hostOps3_1 V (Proc.devRef .tc main_v93)
      = maximumf (F := Ideal) (s := S50000x256) (φ := .f32) (V (Proc.devRef .tc main_v92)) (Cert.ReferenceIdeal.Read.val_main_call2_v0 (F := Ideal)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
/-- The third layer's stretch and its clamp leave the graph assignment alone. -/
theorem layer3_keeps (X : Valuation τ sig (Elt Ideal)) :
    after hostOps3_1 (after hostOps3 ((dotOp3).result X)) (Proc.devRef .tc main_arg2) = X (Proc.devRef .tc main_arg2) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
/-- The mean over each graph's nodes of the last layer's features: the scatter-added features over the
    node count clamped below at one. -/
theorem pooled (V : Valuation τ sig (Elt Ideal)) (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal)) (a7 : (⟨S256x256, .f32⟩ : BufTy).Contents (Elt Ideal)) (a8 : (⟨S256, .f32⟩ : BufTy).Contents (Elt Ideal))
    (h : V (Proc.devRef .tc main_v93) = Cert.ReferenceIdeal.Read.val_main_v93 (F := Ideal) a0 a1 a3 a4 a5 a6 a7 a8)
    (g2 : V (Proc.devRef .tc main_arg2) = a2) :
    after hostOps3_2 V (Proc.devRef .tc main_v105) = Cert.ReferenceIdeal.Read.val_main_v105 (F := Ideal) a0 a1 a2 a3 a4 a5 a6 a7 a8 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      h, g2]
  rfl

set_option maxHeartbeats 4000000 in
/-- The third layer's stretch, its clamp and the pooling leave the classifier's arguments alone. -/
theorem pooling_keeps (X : Valuation τ sig (Elt Ideal)) :
    after hostOps3_2 (after hostOps3_1 (after hostOps3 ((dotOp3).result X))) (Proc.devRef .tc main_arg9) = X (Proc.devRef .tc main_arg9)
    ∧ after hostOps3_2 (after hostOps3_1 (after hostOps3 ((dotOp3).result X))) (Proc.devRef .tc main_arg10) = X (Proc.devRef .tc main_arg10) := by
  refine ⟨?_, ?_⟩ <;>
    (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-! ## After the classifier launch -/

set_option maxHeartbeats 4000000 in
/-- The logits: pooled Wlin (the fourth launch's one operation) plus the bias. -/
theorem logits (X : Valuation τ sig (Elt Ideal)) (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal)) (a7 : (⟨S256x256, .f32⟩ : BufTy).Contents (Elt Ideal)) (a8 : (⟨S256, .f32⟩ : BufTy).Contents (Elt Ideal)) (a9 : (⟨S256x8, .f32⟩ : BufTy).Contents (Elt Ideal)) (a10 : (⟨S8, .f32⟩ : BufTy).Contents (Elt Ideal))
    (h : X (Proc.devRef .tc main_v105) = Cert.ReferenceIdeal.Read.val_main_v105 (F := Ideal) a0 a1 a2 a3 a4 a5 a6 a7 a8)
    (g9 : X (Proc.devRef .tc main_arg9) = a9) (g10 : X (Proc.devRef .tc main_arg10) = a10) :
    after hostOps4 ((dotOpCls).result X) (Proc.devRef .tc main_v109) = Cert.ReferenceIdeal.Read.val_main_v109 (F := Ideal) a0 a1 a2 a3 a4 a5 a6 a7 a8 a9 a10 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      h, g9, g10]
  rfl

end Cert.GcnKernel.Stage

end
-- ==== Proof.KernelValue.lean ====
/-
  The kernel's result, stage by stage.

  The two programs are the same sequence of host operations — degrees and normalisation coefficients
  from the edge list, three graph-convolution layers (gather along edges, scale, scatter-add to the
  destination nodes, add the self term and the bias, clamp at zero), mean pooling over graphs, the
  classifier's bias — except at four places: where the reference multiplies two matrices with one
  `dot_general`, the kernel launches its row-tiled matrix product, and each launch leaves the device's
  buffers as that one `dot_general` would (the four launch modules).

  So the kernel's buffer contents are followed from the launch to the return one stretch at a time.
  At the entry of each launch a few buffers are still to be read: the two endpoint vectors of the edges,
  the coefficient per edge, the inverse degree per node, the current features, and the arguments not yet
  used. Each of them holds the value the reference's own stage functions give it, as a function of the
  eleven argument arrays: the source and destination indices, 1/deg, rsqrt(deg)[src]·rsqrt(deg)[dst],
  then relu(conv(h·W)) layer by layer, then the pooled means, then the logits. Every step only reads a
  stretch of operations at a buffer; no law of arithmetic is used, and no finiteness.
-/
import proofs.«121509_j40750649704920_1_alg».proof.Proof.Gen.KernelIdeal.Frame
import proofs.«121509_j40750649704920_1_alg».proof.Proof.Gen.ReferenceIdeal.Read
import proofs.«121509_j40750649704920_1_alg».proof.Proof.Launch1
import proofs.«121509_j40750649704920_1_alg».proof.Proof.Launch2
import proofs.«121509_j40750649704920_1_alg».proof.Proof.Launch3
import proofs.«121509_j40750649704920_1_alg».proof.Proof.LaunchCls
import proofs.«121509_j40750649704920_1_alg».proof.Proof.StageValues

set_option maxRecDepth 16384

noncomputable section

namespace Cert.GcnKernel

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- At the first launch's entry: the edges' endpoints, the inverse degrees and the edge coefficients are
    the reference's functions of the edge list, and the other arguments are as launched. -/
theorem entry1 (c : Dev nD) :
    W1 m ρ c (Proc.devRef .tc main_v1) = Cert.ReferenceIdeal.Read.val_main_v1 (F := Ideal) (m ((c.tc : Thread nD τ).loc main_arg1))
    ∧ W1 m ρ c (Proc.devRef .tc main_v3) = Cert.ReferenceIdeal.Read.val_main_v3 (F := Ideal) (m ((c.tc : Thread nD τ).loc main_arg1))
    ∧ W1 m ρ c (Proc.devRef .tc main_v12) = Cert.ReferenceIdeal.Read.val_main_v12 (F := Ideal) (m ((c.tc : Thread nD τ).loc main_arg1))
    ∧ W1 m ρ c (Proc.devRef .tc main_v27) = Cert.ReferenceIdeal.Read.val_main_v27 (F := Ideal) (m ((c.tc : Thread nD τ).loc main_arg1))
    ∧ W1 m ρ c (Proc.devRef .tc main_arg0) = (m ((c.tc : Thread nD τ).loc main_arg0))
    ∧ W1 m ρ c (Proc.devRef .tc main_arg2) = (m ((c.tc : Thread nD τ).loc main_arg2))
    ∧ W1 m ρ c (Proc.devRef .tc main_arg3) = (m ((c.tc : Thread nD τ).loc main_arg3))
    ∧ W1 m ρ c (Proc.devRef .tc main_arg4) = (m ((c.tc : Thread nD τ).loc main_arg4))
    ∧ W1 m ρ c (Proc.devRef .tc main_arg5) = (m ((c.tc : Thread nD τ).loc main_arg5))
    ∧ W1 m ρ c (Proc.devRef .tc main_arg6) = (m ((c.tc : Thread nD τ).loc main_arg6))
    ∧ W1 m ρ c (Proc.devRef .tc main_arg7) = (m ((c.tc : Thread nD τ).loc main_arg7))
    ∧ W1 m ρ c (Proc.devRef .tc main_arg8) = (m ((c.tc : Thread nD τ).loc main_arg8))
    ∧ W1 m ρ c (Proc.devRef .tc main_arg9) = (m ((c.tc : Thread nD τ).loc main_arg9))
    ∧ W1 m ρ c (Proc.devRef .tc main_arg10) = (m ((c.tc : Thread nD τ).loc main_arg10)) := by
  dsimp only [W1]
  refine ⟨?_, ?_, ?_, ?_, ?_, ?_, ?_, ?_, ?_, ?_, ?_, ?_, ?_, ?_⟩ <;>
    (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']) <;> rfl

/-- At the second launch's entry: the features are relu of the first convolution of x W1; the edge
    data and the remaining arguments are unchanged. -/
theorem entry2 (c : Dev nD) :
    W4 m ρ c (Proc.devRef .tc main_v49) = Cert.ReferenceIdeal.Read.val_main_v49 (F := Ideal) (m ((c.tc : Thread nD τ).loc main_arg0)) (m ((c.tc : Thread nD τ).loc main_arg1)) (m ((c.tc : Thread nD τ).loc main_arg3)) (m ((c.tc : Thread nD τ).loc main_arg4))
    ∧ W4 m ρ c (Proc.devRef .tc main_v1) = Cert.ReferenceIdeal.Read.val_main_v1 (F := Ideal) (m ((c.tc : Thread nD τ).loc main_arg1))
    ∧ W4 m ρ c (Proc.devRef .tc main_v3) = Cert.ReferenceIdeal.Read.val_main_v3 (F := Ideal) (m ((c.tc : Thread nD τ).loc main_arg1))
    ∧ W4 m ρ c (Proc.devRef .tc main_v12) = Cert.ReferenceIdeal.Read.val_main_v12 (F := Ideal) (m ((c.tc : Thread nD τ).loc main_arg1))
    ∧ W4 m ρ c (Proc.devRef .tc main_v27) = Cert.ReferenceIdeal.Read.val_main_v27 (F := Ideal) (m ((c.tc : Thread nD τ).loc main_arg1))
    ∧ W4 m ρ c (Proc.devRef .tc main_arg2) = (m ((c.tc : Thread nD τ).loc main_arg2))
    ∧ W4 m ρ c (Proc.devRef .tc main_arg5) = (m ((c.tc : Thread nD τ).loc main_arg5))
    ∧ W4 m ρ c (Proc.devRef .tc main_arg6) = (m ((c.tc : Thread nD τ).loc main_arg6))
    ∧ W4 m ρ c (Proc.devRef .tc main_arg7) = (m ((c.tc : Thread nD τ).loc main_arg7))
    ∧ W4 m ρ c (Proc.devRef .tc main_arg8) = (m ((c.tc : Thread nD τ).loc main_arg8))
    ∧ W4 m ρ c (Proc.devRef .tc main_arg9) = (m ((c.tc : Thread nD τ).loc main_arg9))
    ∧ W4 m ρ c (Proc.devRef .tc main_arg10) = (m ((c.tc : Thread nD τ).loc main_arg10)) := by
  obtain ⟨f0, f1, f2, f3, f4, f5, f6, f7, f8, f9, f10, f11, f12, f13⟩ := entry1 m ρ c
  obtain ⟨k1, k3, k12, k27, k_2, k_5, k_6, k_7, k_8, k_9, k_10⟩ := Stage.layer1_keeps (W1 m ρ c)
  dsimp only [W4, W3]
  rw [Launch1.exit_eq m ρ c]
  refine ⟨?_, k1.trans f0, k3.trans f1, k12.trans f2, k27.trans f3, k_2.trans f5, k_5.trans f8, k_6.trans f9,
    k_7.trans f10, k_8.trans f11, k_9.trans f12, k_10.trans f13⟩
  rw [Stage.layer1_relu, Stage.layer1_pre (W1 m ρ c) _ _ _ _ f0 f1 f2 f3 f4 f6 f7]
  rfl

/-- At the third launch's entry: the features are relu of the second convolution of h1 W2. -/
theorem entry3 (c : Dev nD) :
    W7 m ρ c (Proc.devRef .tc main_v71) = Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
    ∧ W7 m ρ c (Proc.devRef .tc main_v1) = Cert.ReferenceIdeal.Read.val_main_v1 (F := Ideal) (m ((c.tc : Thread nD τ).loc main_arg1))
    ∧ W7 m ρ c (Proc.devRef .tc main_v3) = Cert.ReferenceIdeal.Read.val_main_v3 (F := Ideal) (m ((c.tc : Thread nD τ).loc main_arg1))
    ∧ W7 m ρ c (Proc.devRef .tc main_v12) = Cert.ReferenceIdeal.Read.val_main_v12 (F := Ideal) (m ((c.tc : Thread nD τ).loc main_arg1))
    ∧ W7 m ρ c (Proc.devRef .tc main_v27) = Cert.ReferenceIdeal.Read.val_main_v27 (F := Ideal) (m ((c.tc : Thread nD τ).loc main_arg1))
    ∧ W7 m ρ c (Proc.devRef .tc main_arg2) = (m ((c.tc : Thread nD τ).loc main_arg2))
    ∧ W7 m ρ c (Proc.devRef .tc main_arg7) = (m ((c.tc : Thread nD τ).loc main_arg7))
    ∧ W7 m ρ c (Proc.devRef .tc main_arg8) = (m ((c.tc : Thread nD τ).loc main_arg8))
    ∧ W7 m ρ c (Proc.devRef .tc main_arg9) = (m ((c.tc : Thread nD τ).loc main_arg9))
    ∧ W7 m ρ c (Proc.devRef .tc main_arg10) = (m ((c.tc : Thread nD τ).loc main_arg10)) := by
  obtain ⟨f0, f1, f2, f3, f4, f5, f6, f7, f8, f9, f10, f11⟩ := entry2 m ρ c
  obtain ⟨k1, k3, k12, k27, k_2, k_7, k_8, k_9, k_10⟩ := Stage.layer2_keeps (W4 m ρ c)
  dsimp only [W7, W6]
  rw [Launch2.exit_eq m ρ c]
  refine ⟨?_, k1.trans f1, k3.trans f2, k12.trans f3, k27.trans f4, k_2.trans f5, k_7.trans f8, k_8.trans f9,
    k_9.trans f10, k_10.trans f11⟩
  rw [Stage.layer2_relu, Stage.layer2_pre (W4 m ρ c) _ _ _ _ _ _ f0 f1 f2 f3 f4 f6 f7]
  rfl

/-- At the classifier launch's entry: the pooled features are the per-graph means of relu of the third
    convolution of h2 W3. -/
theorem entryCls (c : Dev nD) :
    W11 m ρ c (Proc.devRef .tc main_v105) = Cert.ReferenceIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ W11 m ρ c (Proc.devRef .tc main_arg9) = (m ((c.tc : Thread nD τ).loc main_arg9))
    ∧ W11 m ρ c (Proc.devRef .tc main_arg10) = (m ((c.tc : Thread nD τ).loc main_arg10)) := by
  obtain ⟨f0, f1, f2, f3, f4, f5, f6, f7, f8, f9⟩ := entry3 m ρ c
  obtain ⟨k_9, k_10⟩ := Stage.pooling_keeps (W7 m ρ c)
  have k_2 := Stage.layer3_keeps (W7 m ρ c)
  dsimp only [W11, W10, W9]
  rw [Launch3.exit_eq m ρ c]
  refine ⟨?_, k_9.trans f8, k_10.trans f9⟩
  refine Stage.pooled _ _ _ _ _ _ _ _ _ _ ?_ (k_2.trans f5)
  rw [Stage.layer3_relu, Stage.layer3_pre (W7 m ρ c) _ _ _ _ _ _ _ _ f0 f1 f2 f3 f4 f6 f7]
  rfl

/-- At the return the result buffer holds the reference's last stage of the kernel's own arguments:
    pooled Wlin + blin. -/
theorem result_value (c : Dev nD) :
    W13 m ρ c (Proc.devRef .tc main_v109) = Cert.ReferenceIdeal.Read.val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  obtain ⟨f0, f1, f2⟩ := entryCls m ρ c
  dsimp only [W13]
  rw [LaunchCls.exit_eq m ρ c]
  exact Stage.logits (W11 m ρ c) _ _ _ _ _ _ _ _ _ _ _ f0 f1 f2

end Cert.GcnKernel

end
-- ==== Proof.lean ====
/-
  A three-layer graph convolution network with mean pooling and a linear classifier: the kernel computes
  its four matrix products (x W1, h1 W2, h2 W3, pooled Wlin) with a row-tiled matrix-unit kernel on
  bf16-narrowed operands; the reference computes them with `dot_general`. Everything else — the degrees,
  the edge coefficients, the gathers and scatter-adds, the biases, the clamps at zero, the pooling — is
  the same host operations in both programs.

  On the extended reals narrowing to bf16 is the identity, and a block of rows of a product is the
  product of that block of rows; the blocks tile the output. So each launch leaves exactly what one
  `dot_general` leaves, the two programs compute one composed function of their arguments, and their
  results agree when the arguments do. The frames: the kernel's two programs by their generated frame
  certificates; the reference's by its generated run. The idealisation rewrote no operation, so there
  is nothing to preserve.
-/
import proofs.«121509_j40750649704920_1_alg».proof.Defs
import proofs.«121509_j40750649704920_1_alg».proof.Proof.Gen.Kernel
import proofs.«121509_j40750649704920_1_alg».proof.Proof.Gen.Kernel.Skeleton
import proofs.«121509_j40750649704920_1_alg».proof.Proof.Gen.Kernel.Launch
import proofs.«121509_j40750649704920_1_alg».proof.Proof.Gen.Kernel.Points
import proofs.«121509_j40750649704920_1_alg».proof.Proof.Gen.Kernel.Frame
import proofs.«121509_j40750649704920_1_alg».proof.Proof.Gen.KernelIdeal
import proofs.«121509_j40750649704920_1_alg».proof.Proof.Gen.KernelIdeal.Skeleton
import proofs.«121509_j40750649704920_1_alg».proof.Proof.Gen.KernelIdeal.Launch
import proofs.«121509_j40750649704920_1_alg».proof.Proof.Gen.KernelIdeal.Points
import proofs.«121509_j40750649704920_1_alg».proof.Proof.Gen.KernelIdeal.Frame
import proofs.«121509_j40750649704920_1_alg».proof.Proof.Gen.ReferenceIdeal
import proofs.«121509_j40750649704920_1_alg».proof.Proof.Gen.Pre_finite_inputs
import proofs.«121509_j40750649704920_1_alg».proof.Proof.Gen.ReferenceIdeal.Run
import proofs.«121509_j40750649704920_1_alg».proof.Proof.Gen.ReferenceIdeal.Read
import proofs.«121509_j40750649704920_1_alg».proof.Proof.KernelRun
import proofs.«121509_j40750649704920_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs run, and the kernel's result — its last
    boundary's contents at the result buffer — is the reference's last stage of the same arguments. -/
theorem algebraic : Cert.algebraic_KernelIdeal_ReferenceIdeal := by
  intro m ρ m' ρ' _ hagree
  refine ⟨fun c => Cert.KernelIdeal.Gen.W13 m ρ c (Proc.devRef .tc Cert.KernelIdeal.main_v109),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  -- the reference's term is its last stage of its own arguments, which are the kernel's
  rw [Cert.ReferenceIdeal.Read.val_main_v109_eq m' c, h0, h1, h2, h3, h4, h5, h6, h7, h8, h9, h10]
  exact (Cert.GcnKernel.result_value m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
